-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512x32x3 : Shape := ⟨4, ![256, 512, 32, 3]⟩
abbrev S256x512x32x3x3 : Shape := ⟨5, ![256, 512, 32, 3, 3]⟩
abbrev S_ : Shape := ⟨0, ![]⟩

class Facts : Prop where
  bcast_S_S256x512x32x3 : S_.BroadcastsInDim S256x512x32x3 (![] : Fin 0 → Fin S256x512x32x3.rank)
  reducesTo_S256x512x32x3_S_d0_1_2_3 : S256x512x32x3.ReducesTo [0, 1, 2, 3] S_
  h_S_ : 0 < S_.numel
  bcast_S_S256x512x32x3x3 : S_.BroadcastsInDim S256x512x32x3x3 (![] : Fin 0 → Fin S256x512x32x3x3.rank)
  reducesTo_S256x512x32x3x3_S_d0_1_2_3_4 : S256x512x32x3x3.ReducesTo [0, 1, 2, 3, 4] S_

variable [Facts]

def fn {F : FTy → Type} [FloatOps F] (main_arg0 : FVec F S256x512x32x3 .f32) (main_arg1 : FVec F S256x512x32x3 .f32) (main_arg2 : FVec F S256x512x32x3x3 .f32) : IVec S_ 1 :=
  let main_v0 : FVec F S256x512x32x3 .f32 := Host.absf main_arg0
  let main_cst : FVec F S_ .f32 := constant S_ .f32 0x7F800000#32
  let main_v1 : FVec F S256x512x32x3 .f32 := broadcastInDim S256x512x32x3 ![] bcast_S_S256x512x32x3 main_cst
  let main_v2 : IVec S256x512x32x3 1 := cmpf .olt main_v0 main_v1
  let main_c : IVec S_ 1 := constantI S_ 1 1#1
  let main_v3 : IVec S_ 1 := (fun x v => Host.reduce IntOp.andi x v reducesTo_S256x512x32x3_S_d0_1_2_3 h_S_) main_v2 main_c
  let main_v4 : FVec F S256x512x32x3 .f32 := Host.absf main_arg1
  let main_cst_0 : FVec F S_ .f32 := constant S_ .f32 0x7F800000#32
  let main_v5 : FVec F S256x512x32x3 .f32 := broadcastInDim S256x512x32x3 ![] bcast_S_S256x512x32x3 main_cst_0
  let main_v6 : IVec S256x512x32x3 1 := cmpf .olt main_v4 main_v5
  let main_c_1 : IVec S_ 1 := constantI S_ 1 1#1
  let main_v7 : IVec S_ 1 := (fun x v => Host.reduce IntOp.andi x v reducesTo_S256x512x32x3_S_d0_1_2_3 h_S_) main_v6 main_c_1
  let main_v8 : IVec S_ 1 := andi main_v3 main_v7
  let main_v9 : FVec F S256x512x32x3x3 .f32 := Host.absf main_arg2
  let main_cst_2 : FVec F S_ .f32 := constant S_ .f32 0x7F800000#32
  let main_v10 : FVec F S256x512x32x3x3 .f32 := broadcastInDim S256x512x32x3x3 ![] bcast_S_S256x512x32x3x3 main_cst_2
  let main_v11 : IVec S256x512x32x3x3 1 := cmpf .olt main_v9 main_v10
  let main_c_3 : IVec S_ 1 := constantI S_ 1 1#1
  let main_v12 : IVec S_ 1 := (fun x v => Host.reduce IntOp.andi x v reducesTo_S256x512x32x3x3_S_d0_1_2_3_4 h_S_) main_v11 main_c_3
  let main_v13 : IVec S_ 1 := andi main_v8 main_v12
  main_v13
-- ==== Kernel.lean ====
abbrev S256x512x32x3 : Shape := ⟨4, ![256, 512, 32, 3]⟩
abbrev S256x512x32x3x3 : Shape := ⟨5, ![256, 512, 32, 3, 3]⟩
abbrev S4194304x3 : Shape := ⟨2, ![4194304, 3]⟩
abbrev S4194304x9 : Shape := ⟨2, ![4194304, 9]⟩
abbrev S1x1 : Shape := ⟨2, ![1, 1]⟩
abbrev S8192x3 : Shape := ⟨2, ![8192, 3]⟩
abbrev S8192x9 : Shape := ⟨2, ![8192, 9]⟩
abbrev S8192x1 : Shape := ⟨2, ![8192, 1]⟩
abbrev S8192 : Shape := ⟨1, ![8192]⟩
abbrev S64x128 : Shape := ⟨2, ![64, 128]⟩
abbrev S64 : Shape := ⟨1, ![64]⟩
abbrev S64x1 : Shape := ⟨2, ![64, 1]⟩
abbrev S1 : Shape := ⟨1, ![1]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S256x512x32x3, .f32⟩
  | .hbm, ⟨1, _⟩ => ⟨S256x512x32x3, .f32⟩
  | .hbm, ⟨2, _⟩ => ⟨S256x512x32x3x3, .f32⟩
  | .hbm, ⟨3, _⟩ => ⟨S4194304x3, .f32⟩
  | .hbm, ⟨4, _⟩ => ⟨S4194304x3, .f32⟩
  | .hbm, ⟨5, _⟩ => ⟨S4194304x9, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S8192x3, .f32⟩
  | .local _ .vmem, ⟨1, _⟩ => ⟨S8192x3, .f32⟩
  | .local _ .vmem, ⟨2, _⟩ => ⟨S8192x3, .f32⟩
  | .local _ .vmem, ⟨3, _⟩ => ⟨S8192x3, .f32⟩
  | .local _ .vmem, ⟨4, _⟩ => ⟨S8192x9, .f32⟩
  | .local _ .vmem, ⟨5, _⟩ => ⟨S8192x9, .f32⟩
  | .local _ .vmem, ⟨6, _⟩ => ⟨S1x1, .f32⟩
  | .local _ .vmem, ⟨7, _⟩ => ⟨S1x1, .f32⟩
  | _, _ => ⟨S256x512x32x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![512], ![false]⟩

def k0_cond2 (i : grid0.Coords) : BitVec 1 :=
  let arg0 : BitVec 32 := BitVec.ofNat 32 (i 0).val
  let c511_i32 : BitVec 32 := 511#32
  let v64 : BitVec 1 := Scalar.cmpi .eq arg0 c511_i32
  let v65 : BitVec 32 := Scalar.extui v64
  let c0_i32_14 : BitVec 32 := 0#32
  let v66 : BitVec 1 := Scalar.cmpi .ne v65 c0_i32_14
  v66

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S256x512x32x3_S4194304x3 : S256x512x32x3.ShapeCasts S4194304x3
  shapeCasts_S256x512x32x3x3_S4194304x9 : S256x512x32x3x3.ShapeCasts S4194304x9
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x3_S8192x3_0_0 : ∀ a, (![0, 0] : Fin 2 → Nat) a + S8192x3.size a ≤ S8192x3.size a
  h_S8192x3 : 0 < S8192x3.numel
  shapeCasts_S8192x3_S8192x3 : S8192x3.ShapeCasts S8192x3
  slices_S8192x3_o0_0_S8192x1 : S8192x3.Slices ![0, 0] S8192x1
  shapeCasts_S8192x1_S8192 : S8192x1.ShapeCasts S8192
  slices_S8192x3_o0_1_S8192x1 : S8192x3.Slices ![0, 1] S8192x1
  slices_S8192x3_o0_2_S8192x1 : S8192x3.Slices ![0, 2] S8192x1
  inb_S8192x9_S8192x9_0_0 : ∀ a, (![0, 0] : Fin 2 → Nat) a + S8192x9.size a ≤ S8192x9.size a
  h_S8192x9 : 0 < S8192x9.numel
  shapeCasts_S8192x9_S8192x9 : S8192x9.ShapeCasts S8192x9
  slices_S8192x9_o0_0_S8192x1 : S8192x9.Slices ![0, 0] S8192x1
  slices_S8192x9_o0_3_S8192x1 : S8192x9.Slices ![0, 3] S8192x1
  slices_S8192x9_o0_4_S8192x1 : S8192x9.Slices ![0, 4] S8192x1
  slices_S8192x9_o0_6_S8192x1 : S8192x9.Slices ![0, 6] S8192x1
  slices_S8192x9_o0_7_S8192x1 : S8192x9.Slices ![0, 7] S8192x1
  slices_S8192x9_o0_8_S8192x1 : S8192x9.Slices ![0, 8] S8192x1
  shapeCasts_S8192_S64x128 : S8192.ShapeCasts S64x128
  reduces_S64x128_S64 : S64x128.Reduces [1] S64
  shapeCasts_S64_S64x1 : S64.ShapeCasts S64x1
  reduces_S64x1_S1 : S64x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x3.size a ≤ S4194304x3.size a
  hwx0_0 : ∀ i : grid0.Coords, EltTy.bits .f32 = 32 ∨ (Rect.block (s := S4194304x3) S8192x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x3.size a ≤ S4194304x3.size a
  hwx0_1 : ∀ i : grid0.Coords, EltTy.bits .f32 = 32 ∨ (Rect.block (s := S4194304x3) S8192x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x9.size a ≤ S4194304x9.size a
  hwx0_2 : ∀ i : grid0.Coords, EltTy.bits .f32 = 32 ∨ (Rect.block (s := S4194304x9) S8192x9.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_v0) S8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192x9.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S256x512x32x3 : Shape := ⟨4, ![256, 512, 32, 3]⟩
abbrev S256x512x32x3x3 : Shape := ⟨5, ![256, 512, 32, 3, 3]⟩
abbrev S3 : Shape := ⟨1, ![3]⟩
abbrev S_ : Shape := ⟨0, ![]⟩
abbrev S3x1 : Shape := ⟨2, ![3, 1]⟩
abbrev S3x2 : Shape := ⟨2, ![3, 2]⟩
abbrev S256x512x32 : Shape := ⟨3, ![256, 512, 32]⟩
abbrev S256x512x32x1 : Shape := ⟨4, ![256, 512, 32, 1]⟩
abbrev S256x512x32x1x1 : Shape := ⟨5, ![256, 512, 32, 1, 1]⟩

abbrev nBuf : Space → Nat
  | .hbm => 73
  | .vmem => 0
  | .smem => 0
  | _ => 0

abbrev bufTy : (tb : Table) → Fin (tcTables nBuf tb) → BufTy
  | .hbm, ⟨0, _⟩ => ⟨S256x512x32x3, .f32⟩
  | .hbm, ⟨1, _⟩ => ⟨S256x512x32x3, .f32⟩
  | .hbm, ⟨2, _⟩ => ⟨S256x512x32x3x3, .f32⟩
  | .hbm, ⟨3, _⟩ => ⟨S3, .i32⟩
  | .hbm, ⟨4, _⟩ => ⟨S3, .i32⟩
  | .hbm, ⟨5, _⟩ => ⟨S_, .i32⟩
  | .hbm, ⟨6, _⟩ => ⟨S3, .i32⟩
  | .hbm, ⟨7, _⟩ => ⟨S3, .i1⟩
  | .hbm, ⟨8, _⟩ => ⟨S_, .i32⟩
  | .hbm, ⟨9, _⟩ => ⟨S3, .i32⟩
  | .hbm, ⟨10, _⟩ => ⟨S3, .i32⟩
  | .hbm, ⟨11, _⟩ => ⟨S3, .i32⟩
  | .hbm, ⟨12, _⟩ => ⟨S_, .i32⟩
  | .hbm, ⟨13, _⟩ => ⟨S3, .i32⟩
  | .hbm, ⟨14, _⟩ => ⟨S3, .i1⟩
  | .hbm, ⟨15, _⟩ => ⟨S_, .i32⟩
  | .hbm, ⟨16, _⟩ => ⟨S3, .i32⟩
  | .hbm, ⟨17, _⟩ => ⟨S3, .i32⟩
  | .hbm, ⟨18, _⟩ => ⟨S3, .i32⟩
  | .hbm, ⟨19, _⟩ => ⟨S3x1, .i32⟩
  | .hbm, ⟨20, _⟩ => ⟨S3x1, .i32⟩
  | .hbm, ⟨21, _⟩ => ⟨S3x2, .i32⟩
  | .hbm, ⟨22, _⟩ => ⟨S256x512x32x3, .f32⟩
  | .hbm, ⟨23, _⟩ => ⟨S256x512x32x3, .f32⟩
  | .hbm, ⟨24, _⟩ => ⟨S_, .f32⟩
  | .hbm, ⟨25, _⟩ => ⟨S256x512x32, .f32⟩
  | .hbm, ⟨26, _⟩ => ⟨S_, .f32⟩
  | .hbm, ⟨27, _⟩ => ⟨S256x512x32, .f32⟩
  | .hbm, ⟨28, _⟩ => ⟨S256x512x32, .f32⟩
  | .hbm, ⟨29, _⟩ => ⟨S256x512x32x3, .f32⟩
  | .hbm, ⟨30, _⟩ => ⟨S256x512x32x1, .f32⟩
  | .hbm, ⟨31, _⟩ => ⟨S256x512x32, .f32⟩
  | .hbm, ⟨32, _⟩ => ⟨S256x512x32x1x1, .f32⟩
  | .hbm, ⟨33, _⟩ => ⟨S256x512x32, .f32⟩
  | .hbm, ⟨34, _⟩ => ⟨S256x512x32, .f32⟩
  | .hbm, ⟨35, _⟩ => ⟨S256x512x32x1, .f32⟩
  | .hbm, ⟨36, _⟩ => ⟨S256x512x32, .f32⟩
  | .hbm, ⟨37, _⟩ => ⟨S256x512x32x1x1, .f32⟩
  | .hbm, ⟨38, _⟩ => ⟨S256x512x32, .f32⟩
  | .hbm, ⟨39, _⟩ => ⟨S256x512x32, .f32⟩
  | .hbm, ⟨40, _⟩ => ⟨S256x512x32, .f32⟩
  | .hbm, ⟨41, _⟩ => ⟨S256x512x32x1x1, .f32⟩
  | .hbm, ⟨42, _⟩ => ⟨S256x512x32, .f32⟩
  | .hbm, ⟨43, _⟩ => ⟨S256x512x32, .f32⟩
  | .hbm, ⟨44, _⟩ => ⟨S256x512x32x1, .f32⟩
  | .hbm, ⟨45, _⟩ => ⟨S256x512x32, .f32⟩
  | .hbm, ⟨46, _⟩ => ⟨S256x512x32x1x1, .f32⟩
  | .hbm, ⟨47, _⟩ => ⟨S256x512x32, .f32⟩
  | .hbm, ⟨48, _⟩ => ⟨S256x512x32, .f32⟩
  | .hbm, ⟨49, _⟩ => ⟨S256x512x32, .f32⟩
  | .hbm, ⟨50, _⟩ => ⟨S256x512x32x1x1, .f32⟩
  | .hbm, ⟨51, _⟩ => ⟨S256x512x32, .f32⟩
  | .hbm, ⟨52, _⟩ => ⟨S256x512x32, .f32⟩
  | .hbm, ⟨53, _⟩ => ⟨S256x512x32, .f32⟩
  | .hbm, ⟨54, _⟩ => ⟨S256x512x32x1x1, .f32⟩
  | .hbm, ⟨55, _⟩ => ⟨S256x512x32, .f32⟩
  | .hbm, ⟨56, _⟩ => ⟨S256x512x32, .f32⟩
  | .hbm, ⟨57, _⟩ => ⟨S256x512x32, .f32⟩
  | .hbm, ⟨58, _⟩ => ⟨S256x512x32, .f32⟩
  | .hbm, ⟨59, _⟩ => ⟨S256x512x32, .f32⟩
  | .hbm, ⟨60, _⟩ => ⟨S256x512x32, .f32⟩
  | .hbm, ⟨61, _⟩ => ⟨S256x512x32, .f32⟩
  | .hbm, ⟨62, _⟩ => ⟨S256x512x32, .f32⟩
  | .hbm, ⟨63, _⟩ => ⟨S_, .f32⟩
  | .hbm, ⟨64, _⟩ => ⟨S256x512x32, .f32⟩
  | .hbm, ⟨65, _⟩ => ⟨S256x512x32, .f32⟩
  | .hbm, ⟨66, _⟩ => ⟨S_, .f32⟩
  | .hbm, ⟨67, _⟩ => ⟨S256x512x32, .f32⟩
  | .hbm, ⟨68, _⟩ => ⟨S256x512x32, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S256x512x32x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_c : Ref sig .tc := ⟨.hbm, 5, rfl⟩
abbrev main_call0_v2 : Ref sig .tc := ⟨.hbm, 6, rfl⟩
abbrev main_call0_v3 : Ref sig .tc := ⟨.hbm, 7, rfl⟩
abbrev main_call0_c_0 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_c_1 : Ref sig .tc := ⟨.hbm, 12, rfl⟩
abbrev main_call0_v7 : Ref sig .tc := ⟨.hbm, 13, rfl⟩
abbrev main_call0_v8 : Ref sig .tc := ⟨.hbm, 14, rfl⟩
abbrev main_call0_c_2 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_v0 : Ref sig .tc := ⟨.hbm, 22, rfl⟩
abbrev main_v1 : Ref sig .tc := ⟨.hbm, 23, rfl⟩
abbrev main_cst : Ref sig .tc := ⟨.hbm, 24, rfl⟩
abbrev main_v2 : Ref sig .tc := ⟨.hbm, 25, rfl⟩
abbrev main_cst_0 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_1 : Ref sig .tc := ⟨.hbm, 63, rfl⟩
abbrev main_v39 : Ref sig .tc := ⟨.hbm, 64, rfl⟩
abbrev main_v40 : Ref sig .tc := ⟨.hbm, 65, rfl⟩
abbrev main_cst_2 : Ref sig .tc := ⟨.hbm, 66, rfl⟩
abbrev main_v41 : Ref sig .tc := ⟨.hbm, 67, rfl⟩
abbrev main_v42 : Ref sig .tc := ⟨.hbm, 68, rfl⟩
abbrev main_cst_3 : Ref sig .tc := ⟨.hbm, 69, rfl⟩
abbrev main_v43 : Ref sig .tc := ⟨.hbm, 70, rfl⟩
abbrev main_cst_4 : Ref sig .tc := ⟨.hbm, 71, rfl⟩
abbrev main_v44 : Ref sig .tc := ⟨.hbm, 72, rfl⟩

abbrev nD : Nat := 1
abbrev τ : Topo := Topo.v7x

variable {F : FTy → Type} [FloatOps F]

class Facts₀ : Prop where
  bcast_S_S3 : S_.BroadcastsInDim S3 (![] : Fin 0 → Fin S3.rank)
  bcast_S3_S3x1_0 : S3.BroadcastsInDim S3x1 (![0] : Fin 1 → Fin S3x1.rank)
  concatenates_S3x1_S3x1_S3x2_d1 : Shape.Concatenates [S3x1, S3x1] S3x2 1
  reducesTo_S256x512x32x3_S256x512x32_d3 : S256x512x32x3.ReducesTo [3] S256x512x32
  h_S_ : 0 < S_.numel
  bcast_S_S256x512x32 : S_.BroadcastsInDim S256x512x32 (![] : Fin 0 → Fin S256x512x32.rank)
  slices_S256x512x32x3_S256x512x32x1_0_0_0_0 : S256x512x32x3.Slices ![0, 0, 0, 0] S256x512x32x1
  shapeCasts_S256x512x32x1_S256x512x32 : S256x512x32x1.ShapeCasts S256x512x32
  slices_S256x512x32x3x3_S256x512x32x1x1_0_0_0_0_0 : S256x512x32x3x3.Slices ![0, 0, 0, 0, 0] S256x512x32x1x1
  shapeCasts_S256x512x32x1x1_S256x512x32 : S256x512x32x1x1.ShapeCasts S256x512x32
  slices_S256x512x32x3_S256x512x32x1_0_0_0_1 : S256x512x32x3.Slices ![0, 0, 0, 1] S256x512x32x1
  slices_S256x512x32x3x3_S256x512x32x1x1_0_0_0_1_0 : S256x512x32x3x3.Slices ![0, 0, 0, 1, 0] S256x512x32x1x1
  slices_S256x512x32x3x3_S256x512x32x1x1_0_0_0_1_1 : S256x512x32x3x3.Slices ![0, 0, 0, 1, 1] S256x512x32x1x1
  slices_S256x512x32x3_S256x512x32x1_0_0_0_2 : S256x512x32x3.Slices ![0, 0, 0, 2] S256x512x32x1
  slices_S256x512x32x3x3_S256x512x32x1x1_0_0_0_2_0 : S256x512x32x3x3.Slices ![0, 0, 0, 2, 0] S256x512x32x1x1
  slices_S256x512x32x3x3_S256x512x32x1x1_0_0_0_2_1 : S256x512x32x3x3.Slices ![0, 0, 0, 2, 1] S256x512x32x1x1
  slices_S256x512x32x3x3_S256x512x32x1x1_0_0_0_2_2 : S256x512x32x3x3.Slices ![0, 0, 0, 2, 2] S256x512x32x1x1
  reducesTo_S256x512x32_S_d0_1_2 : S256x512x32.ReducesTo [0, 1, 2] S_
  gather_S256x512x32x3x3_S3x2_S256x512x32x3_012_34_n_n_34_1_2565123211_wf : GatherDims.WF S256x512x32x3x3 S3x2 S256x512x32x3 [0, 1, 2] [3, 4] [] [3, 4] [] 1 ![256, 512, 32, 1, 1]

variable [Facts₀]

def gather_S256x512x32x3x3_S3x2_S256x512x32x3_012_34_n_n_34_1_2565123211 : GatherDims S256x512x32x3x3 S3x2 S256x512x32x3 where
  offsetDims := [0, 1, 2]
  collapsedSliceDims := [3, 4]
  operandBatchingDims := []
  startIndicesBatchingDims := []
  startIndexMap := [3, 4]
  indexVectorDim := 1
  sliceSizes := ![256, 512, 32, 1, 1]
  wf := gather_S256x512x32x3x3_S3x2_S256x512x32x3_012_34_n_n_34_1_2565123211_wf

class Facts : Prop extends Facts₀ where

variable [Facts]
-- ==== Proof.LossSpec.lean ====
import Idealize.ShloMosaic.PureOps.Ideal
import Idealize.ShloMosaic.PureOps.Ideal.Laws
import Idealize.ShloMosaic.Lib.ValueIdx

/-!
# The negative log-likelihood of a Gaussian with a 3×3 lower-triangular Cholesky factor

For one problem — a residual `d = (d₀, d₁, d₂)` and a lower-triangular factor `L` with entries
`l₀₀, l₁₀, l₁₁, l₂₀, l₂₁, l₂₂` — forward substitution solves `L x = d`:

  `x₀ = d₀ / l₀₀`,  `x₁ = (d₁ − l₁₀ x₀) / l₁₁`,  `x₂ = (d₂ − l₂₀ x₀ − l₂₁ x₁) / l₂₂`,

and the loss is `½ · (‖x‖² + 2 · (log l₀₀ + log l₁₁ + log l₂₂) + 3 log 2π)`, every operation read on the
extended reals. The result both programs compute is the MEAN of this loss over all 4 194 304 problems: the sum over
the problems divided by their number. Addition on the extended reals is commutative and associative (an infinity of
either sign included), so the sum does not depend on the order or the grouping of its terms; nothing below needs the
entries to be finite.

This module states that function over the arrays flattened to one row per problem, and the one re-indexing law the
proof uses twice: a sum over `a · b` consecutive positions is the sum over `a` blocks of the sums over the `b`
positions of each block.
-/

noncomputable section

namespace Cert.TriNll

open Idealize.ShloMosaic Idealize.ShloMosaic.ValueIdx

/-- The constants, as the bit patterns both programs carry: `½`, `2`, and the single-precision value nearest
    `3 · log 2π`. The same word on both sides denotes the same extended real, so none is ever evaluated. -/
abbrev half : EReal := Ideal.ofBits .f32 0x3F000000#32
abbrev two : EReal := Ideal.ofBits .f32 0x40000000#32
abbrev threeLogTwoPi : EReal := Ideal.ofBits .f32 0x40B06FAB#32
/-- The number of problems, `2²²`, as the divisor both programs carry. -/
abbrev count : EReal := Ideal.ofBits .f32 0x4A800000#32

/-- The loss of one problem, from its residual and the six entries of its factor. -/
def nll (d0 d1 d2 l00 l10 l11 l20 l21 l22 : EReal) : EReal :=
  half * ((((Ideal.div d0 l00) * (Ideal.div d0 l00)
        + (Ideal.div (d1 - l10 * Ideal.div d0 l00) l11) * (Ideal.div (d1 - l10 * Ideal.div d0 l00) l11))
      + (Ideal.div (d2 - l20 * Ideal.div d0 l00 - l21 * Ideal.div (d1 - l10 * Ideal.div d0 l00) l11) l22)
        * (Ideal.div (d2 - l20 * Ideal.div d0 l00 - l21 * Ideal.div (d1 - l10 * Ideal.div d0 l00) l11) l22))
    + two * ((Ideal.log l00 + Ideal.log l11) + Ideal.log l22)
    + threeLogTwoPi)

/-- The arrays with one row per problem: the two 3-vectors and the factor's nine entries in row-major order
    (entry `(r, c)` of the factor in column `3 r + c`). -/
abbrev Vec3Rows : Shape := ⟨2, ![4194304, 3]⟩
abbrev Mat9Rows : Shape := ⟨2, ![4194304, 9]⟩

/-- The loss of problem `n`: the residual is the difference of the two vectors' rows, the factor's entries are read
    from columns 0, 3, 4, 6, 7, 8 of its row. -/
def rowLoss (Y P : Vec3Rows.Idx → EReal) (LL : Mat9Rows.Idx → EReal) (n : Fin 4194304) : EReal :=
  nll (Y (ix2 n (0 : Fin 3)) - P (ix2 n (0 : Fin 3))) (Y (ix2 n (1 : Fin 3)) - P (ix2 n (1 : Fin 3)))
    (Y (ix2 n (2 : Fin 3)) - P (ix2 n (2 : Fin 3)))
    (LL (ix2 n (0 : Fin 9))) (LL (ix2 n (3 : Fin 9))) (LL (ix2 n (4 : Fin 9)))
    (LL (ix2 n (6 : Fin 9))) (LL (ix2 n (7 : Fin 9))) (LL (ix2 n (8 : Fin 9)))

/-- The mean loss: the sum over every problem, divided by their number. -/
def meanLoss (Y P : Vec3Rows.Idx → EReal) (LL : Mat9Rows.Idx → EReal) : EReal :=
  Ideal.div (∑ n : Fin 4194304, rowLoss Y P LL n) count

/-! ## Sums over consecutive positions, block by block -/

/-- Position `q` of block `t` lies below `a · b`. -/
theorem mul_add_lt {a b : ℕ} (t : Fin a) (q : Fin b) : t.val * b + q.val < a * b :=
  calc t.val * b + q.val < t.val * b + b := Nat.add_lt_add_left q.isLt _
    _ = (t.val + 1) * b := (Nat.succ_mul _ _).symm
    _ ≤ a * b := Nat.mul_le_mul_right _ t.isLt

/-- A sum over `a · b` positions is the sum, over the `a` blocks of `b` consecutive positions, of each block's sum
    (in a commutative monoid: the pairs `(t, q)` and the positions `t · b + q` correspond one to one). -/
theorem sum_blocks {M : Type*} [AddCommMonoid M] (a b : ℕ) (g : Fin (a * b) → M) :
    ∑ t : Fin a, ∑ q : Fin b, g ⟨t.val * b + q.val, mul_add_lt t q⟩ = ∑ n, g n := by
  rw [← Equiv.sum_comp finProdFinEquiv g, Fintype.sum_prod_type]
  refine Finset.sum_congr rfl fun t _ => Finset.sum_congr rfl fun q _ => congrArg g (Fin.ext ?_)
  show t.val * b + q.val = q.val + b * t.val
  rw [Nat.mul_comm, Nat.add_comm]

end Cert.TriNll

end
-- ==== Proof.FlatLayout.lean ====
import Idealize.ShloMosaic.Lib.ValueLayout
import Idealize.ShloMosaic.Lib.Pipeline.Value

/-!
# Re-laid arrays read at coordinates

Problem `(b, s, j)` of the `256 × 512 × 32` problems is row `(512 b + s) · 32 + j` of the arrays flattened to one row
per problem: a reshape keeps every element at its row-major position, so entry `k` of the problem's 3-vector is at
`(row, k)`, and entry `(r, c)` of its 3×3 factor is at `(row, 3 r + c)`. The same bookkeeping, for the small
re-layings a block of 8192 rows goes through before it is summed: one column of a block as a vector, the 8192 losses
regrouped as 64 rows of 128, and a `1 × 1` array read as a scalar.
-/

namespace Cert.TriNll

open Idealize.ShloMosaic Idealize.ShloMosaic.ValueIdx

variable {α : Type}

/-- The row of problem `(b, s, j)`. -/
def rowOf (b : Fin 256) (s : Fin 512) (j : Fin 32) : Fin 4194304 :=
  ⟨(b.val * 512 + s.val) * 32 + j.val, by have := b.isLt; have := s.isLt; have := j.isLt; omega⟩

theorem rowOf_val (b : Fin 256) (s : Fin 512) (j : Fin 32) : (rowOf b s j).val = (b.val * 512 + s.val) * 32 + j.val := rfl

/-- The 3-vectors flattened to one row per problem: entry `k` of problem `(b, s, j)` is at `(row, k)`. -/
theorem flat3_apply (X : (⟨4, ![256, 512, 32, 3]⟩ : Shape).Idx → α)
    (h : (⟨4, ![256, 512, 32, 3]⟩ : Shape).ShapeCasts ⟨2, ![4194304, 3]⟩)
    (b : Fin 256) (s : Fin 512) (j : Fin 32) (k : Fin 3) :
    shapeCast ⟨2, ![4194304, 3]⟩ X h (ix2 (rowOf b s j) k) = X (ix4 b s j k) :=
  shapeCast_apply X h _ _ (by
    rw [Shape.rowMajor_val_four, Shape.rowMajor_val_two]
    show ((b.val * 512 + s.val) * 32 + j.val) * 3 + k.val = ((b.val * 512 + s.val) * 32 + j.val) * 3 + k.val
    rfl)

/-- The factors flattened to one row per problem: entry `(r, c)` of problem `(b, s, j)` is at column `3 r + c`. -/
theorem flat9_apply (X : (⟨5, ![256, 512, 32, 3, 3]⟩ : Shape).Idx → α)
    (h : (⟨5, ![256, 512, 32, 3, 3]⟩ : Shape).ShapeCasts ⟨2, ![4194304, 9]⟩)
    (b : Fin 256) (s : Fin 512) (j : Fin 32) (r c : Fin 3) (e : Fin 9) (he : e.val = 3 * r.val + c.val) :
    shapeCast ⟨2, ![4194304, 9]⟩ X h (ix2 (rowOf b s j) e) = X (ix5 b s j r c) :=
  shapeCast_apply X h _ _ (by
    rw [Shape.rowMajor_val_five, Shape.rowMajor_val_two]
    show (((b.val * 512 + s.val) * 32 + j.val) * 3 + r.val) * 3 + c.val = ((b.val * 512 + s.val) * 32 + j.val) * 9 + e.val
    omega)

/-- A column `[a, 1]` read as a vector `[a]`: entry `i` is the column's entry of row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Column `k` of an `[a, m]` block, cut out as `[a, 1]` and read as a vector: entry `q` is the block's `(q, k)`. -/
theorem column_apply {a m : ℕ} (o : ℕ) (X : (⟨2, ![a, m]⟩ : Shape).Idx → α)
    (hs : (⟨2, ![a, m]⟩ : Shape).Slices ![0, o] ⟨2, ![a, 1]⟩)
    (hc : (⟨2, ![a, 1]⟩ : Shape).ShapeCasts ⟨1, ![a]⟩) (q : Fin a) (k : Fin m) (hk : k.val = o) :
    shapeCast ⟨1, ![a]⟩ (extractStridedSlice ⟨2, ![a, 1]⟩ ![0, o] X hs) hc (ix1 q) = X (ix2 q k) :=
  (shapeCast_a1_a_apply _ hc q).trans (slice2_axis1_apply o X hs q (0 : Fin 1) k (by rw [hk]; rfl))

/-- The 8192 losses of a block regrouped as 64 rows of 128: entry `(r, l)` is loss `128 r + l`. -/
theorem regroup_apply (x : (⟨1, ![8192]⟩ : Shape).Idx → α) (h : (⟨1, ![8192]⟩ : Shape).ShapeCasts ⟨2, ![64, 128]⟩)
    (r : Fin 64) (l : Fin 128) :
    shapeCast ⟨2, ![64, 128]⟩ x h (ix2 r l)
      = x (ix1 ⟨r.val * 128 + l.val, by have := r.isLt; have := l.isLt; omega⟩) :=
  shapeCast_apply x h _ _ (by
    rw [Shape.rowMajor_val_one, Shape.rowMajor_val_two]
    rfl)

/-- A `1 × 1` array read as a scalar: its one entry. -/
theorem scalar_apply (x : (⟨2, ![1, 1]⟩ : Shape).Idx → α) (h : (⟨2, ![1, 1]⟩ : Shape).ShapeCasts ⟨0, ![]⟩)
    (i : (⟨0, ![]⟩ : Shape).Idx) :
    shapeCast ⟨0, ![]⟩ x h i = x (ix2 (0 : Fin 1) (0 : Fin 1)) :=
  shapeCast_apply x h _ _ (by
    rw [Shape.rowMajor_val_two]
    show 0 * 1 + 0 = (Shape.rowMajorPi _ i).val
    rw [Shape.rowMajorPi_zero])

end Cert.TriNll
-- ==== Proof.TileTerms.lean ====
import proofs.«173011_j43868795961969_2_alg».proof.Proof.Gen.KernelIdeal.Skeleton
import proofs.«173011_j43868795961969_2_alg».proof.Proof.LossSpec
import proofs.«173011_j43868795961969_2_alg».proof.Proof.FlatLayout

/-!
# The two elementwise terms of a block, row by row

For a block of 8192 rows — the two vectors' blocks `x₀, x₁` and the factor's block `x₂` — the body computes two
vectors of 8192 entries. Entry `q` of the first is the squared norm of the solution of row `q`'s triangular system:
with the residual `d = x₀[q] − x₁[q]` and the factor's entries taken from columns 0, 3, 4, 6, 7, 8 of `x₂[q]`, the
forward substitution `u₀ = d₀ / l₀₀`, `u₁ = (d₁ − l₁₀ u₀) / l₁₁`, `u₂ = (d₂ − l₂₀ u₀ − l₂₁ u₁) / l₂₂` and
`(u₀² + u₁²) + u₂²`. Entry `q` of the second is `2 · ((log l₀₀ + log l₁₁) + log l₂₂)`. Each column is cut out of the
block as a column and read as a vector, which reads the block at `(q, column)`.
-/

noncomputable section

namespace Cert.TriNll.Kernel

open Idealize.ShloMosaic
open Idealize.ShloMosaic.ValueIdx
open Cert.KernelIdeal
open Cert.KernelIdeal.Gen

/-- The squared norm of the solution of row `q`'s triangular system. -/
theorem sqnorm_apply (x0 x1 : Vec Ideal S8192x3 .f32) (x2 : Vec Ideal S8192x9 .f32) (q : Fin 8192) :
    k0_pay7 (F := Ideal) x0 x1 x2 (ix1 q)
      = ((Ideal.div (x0 (ix2 q (0 : Fin 3)) - x1 (ix2 q (0 : Fin 3))) (x2 (ix2 q (0 : Fin 9))))
            * (Ideal.div (x0 (ix2 q (0 : Fin 3)) - x1 (ix2 q (0 : Fin 3))) (x2 (ix2 q (0 : Fin 9))))
          + (Ideal.div ((x0 (ix2 q (1 : Fin 3)) - x1 (ix2 q (1 : Fin 3)))
                - x2 (ix2 q (3 : Fin 9)) * Ideal.div (x0 (ix2 q (0 : Fin 3)) - x1 (ix2 q (0 : Fin 3))) (x2 (ix2 q (0 : Fin 9))))
              (x2 (ix2 q (4 : Fin 9))))
            * (Ideal.div ((x0 (ix2 q (1 : Fin 3)) - x1 (ix2 q (1 : Fin 3)))
                - x2 (ix2 q (3 : Fin 9)) * Ideal.div (x0 (ix2 q (0 : Fin 3)) - x1 (ix2 q (0 : Fin 3))) (x2 (ix2 q (0 : Fin 9))))
              (x2 (ix2 q (4 : Fin 9)))))
        + (Ideal.div ((x0 (ix2 q (2 : Fin 3)) - x1 (ix2 q (2 : Fin 3)))
              - x2 (ix2 q (6 : Fin 9)) * Ideal.div (x0 (ix2 q (0 : Fin 3)) - x1 (ix2 q (0 : Fin 3))) (x2 (ix2 q (0 : Fin 9)))
              - x2 (ix2 q (7 : Fin 9)) * Ideal.div ((x0 (ix2 q (1 : Fin 3)) - x1 (ix2 q (1 : Fin 3)))
                  - x2 (ix2 q (3 : Fin 9)) * Ideal.div (x0 (ix2 q (0 : Fin 3)) - x1 (ix2 q (0 : Fin 3))) (x2 (ix2 q (0 : Fin 9))))
                (x2 (ix2 q (4 : Fin 9))))
            (x2 (ix2 q (8 : Fin 9))))
          * (Ideal.div ((x0 (ix2 q (2 : Fin 3)) - x1 (ix2 q (2 : Fin 3)))
              - x2 (ix2 q (6 : Fin 9)) * Ideal.div (x0 (ix2 q (0 : Fin 3)) - x1 (ix2 q (0 : Fin 3))) (x2 (ix2 q (0 : Fin 9)))
              - x2 (ix2 q (7 : Fin 9)) * Ideal.div ((x0 (ix2 q (1 : Fin 3)) - x1 (ix2 q (1 : Fin 3)))
                  - x2 (ix2 q (3 : Fin 9)) * Ideal.div (x0 (ix2 q (0 : Fin 3)) - x1 (ix2 q (0 : Fin 3))) (x2 (ix2 q (0 : Fin 9))))
                (x2 (ix2 q (4 : Fin 9))))
            (x2 (ix2 q (8 : Fin 9)))) := by
  unfold k0_pay7 k0_pay4 k0_pay5 k0_pay6 k0_pay3
  simp only [addf_apply, mulf_apply, subf_apply, divf_apply, shapeCast_self, column_apply 0 _ _ _ q (0 : Fin 3) rfl, column_apply 1 _ _ _ q (1 : Fin 3) rfl, column_apply 2 _ _ _ q (2 : Fin 3) rfl, column_apply 0 _ _ _ q (0 : Fin 9) rfl, column_apply 3 _ _ _ q (3 : Fin 9) rfl, column_apply 4 _ _ _ q (4 : Fin 9) rfl, column_apply 6 _ _ _ q (6 : Fin 9) rfl, column_apply 7 _ _ _ q (7 : Fin 9) rfl, column_apply 8 _ _ _ q (8 : Fin 9) rfl]

/-- The logarithm of a vector, entry by entry: the extended reals' logarithm of the entry. -/
theorem log_apply {s : Shape} (v : FVec Ideal s .f32) (i : s.Idx) : log v i = Ideal.log (v i) := rfl

/-- Twice the sum of the logarithms of row `q`'s diagonal. -/
theorem logdiag_apply (x2 : Vec Ideal S8192x9 .f32) (q : Fin 8192) :
    k0_pay8 (F := Ideal) x2 (ix1 q)
      = two * ((Ideal.log (x2 (ix2 q (0 : Fin 9))) + Ideal.log (x2 (ix2 q (4 : Fin 9)))) + Ideal.log (x2 (ix2 q (8 : Fin 9)))) := by
  unfold k0_pay8 k0_pay4 k0_pay5 k0_pay6 k0_pay3
  simp only [addf_apply, mulf_apply, broadcast_apply, log_apply, shapeCast_self, column_apply 0 _ _ _ q (0 : Fin 9) rfl, column_apply 3 _ _ _ q (3 : Fin 9) rfl, column_apply 4 _ _ _ q (4 : Fin 9) rfl, column_apply 6 _ _ _ q (6 : Fin 9) rfl, column_apply 7 _ _ _ q (7 : Fin 9) rfl, column_apply 8 _ _ _ q (8 : Fin 9) rfl]
  rfl

end Cert.TriNll.Kernel

end
-- ==== Proof.KernelPieces.lean ====
import proofs.«173011_j43868795961969_2_alg».proof.Proof.Gen.KernelIdeal.Frame
import Idealize.ShloMosaic.Lib.Pipeline.Value
import Idealize.ShloMosaic.Lib.Tactic

/-!
# What one grid point leaves in the accumulator

The body keeps a `1 × 1` accumulator across the 512 grid points. At every point it adds the sum of the point's 8192
losses to what the accumulator holds and stores the result back: as a function of the point's three input blocks
`x₀, x₁, x₂` and the accumulator's contents `a`, the new contents are `step x₀ x₁ x₂ a` below. The three kinds of point
differ only in `a`: the first point stores zero before reading it back, so `a` is the zero block; every later point
finds what the point before left; and the last point, after its store, copies the accumulator — read back, so the value
just stored — into the output block.
-/

noncomputable section

namespace Cert.TriNll.Kernel

open Idealize.ShloMosaic
open Idealize.ShloMosaic.TcCoe
open Idealize.SL.Sem
open Cert.KernelIdeal
open Cert.KernelIdeal.Gen

variable {F : FTy → Type} [FloatOps F]

theorem hz : (![0, 0] : Fin 2 → Nat) = fun _ => 0 := funext fun a => by fin_cases a <;> rfl

/-- The accumulator after a point, from the point's input blocks and the accumulator before it: the previous contents
    plus the sum of the block's losses (the squared solution and the doubled log-diagonal are the block's two
    elementwise terms). -/
abbrev step (x0 x1 : Vec F S8192x3 .f32) (x2 : Vec F S8192x9 .f32) (a : Vec F S1x1 .f32) : Vec F S1x1 .f32 :=
  k0_pay1 (k0_pay7 x0 x1 x2) (k0_pay8 x2) a

/-- The first point: the accumulator is zeroed, read back, and stepped. -/
theorem first_point (c : Dev nD) (i : grid0.Coords) (arg1 : Memref sig .tc .vmem S8192x3 .f32) (harg1 : arg1.IsWhole)
    (arg2 : Memref sig .tc .vmem S8192x3 .f32) (harg2 : arg2.IsWhole) (arg3 : Memref sig .tc .vmem S8192x9 .f32) (harg3 : arg3.IsWhole)
    (arg4 : Memref sig .tc .vmem S1x1 .f32) (harg4 : arg4.IsWhole) (arg5 : Memref sig .tc .vmem S1x1 .f32) (harg5 : arg5.IsWhole)
    (hc0 : cond0_0 i) (hc1 : ¬cond0_1 i)
    (x0 : Vec F S8192x3 .f32) (x1 : Vec F S8192x3 .f32) (x2 : Vec F S8192x9 .f32) :
    sout0_A_0 c i arg1 harg1 arg2 harg2 arg3 harg3 arg4 harg4 arg5 harg5 hc0 hc1 x0 x1 x2
      = step x0 x1 x2 (k0_pay2 (F := F)) := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg5.read_unread,
    View.ld_unit_zero (S := S8192x3) hz, View.ld_unit_zero (S := S8192x9) hz, View.ld_unit_zero (S := S1x1) hz]

/-- A middle point: the accumulator the point before left, stepped. -/
theorem middle_point (c : Dev nD) (i : grid0.Coords) (arg1 : Memref sig .tc .vmem S8192x3 .f32) (harg1 : arg1.IsWhole)
    (arg2 : Memref sig .tc .vmem S8192x3 .f32) (harg2 : arg2.IsWhole) (arg3 : Memref sig .tc .vmem S8192x9 .f32) (harg3 : arg3.IsWhole)
    (arg4 : Memref sig .tc .vmem S1x1 .f32) (harg4 : arg4.IsWhole) (arg5 : Memref sig .tc .vmem S1x1 .f32) (harg5 : arg5.IsWhole)
    (hc0 : ¬cond0_0 i) (hc1 : ¬cond0_1 i)
    (x0 : Vec F S8192x3 .f32) (x1 : Vec F S8192x3 .f32) (x2 : Vec F S8192x9 .f32) (xs0 : Vec F S1x1 .f32) :
    sout0_B_0 c i arg1 harg1 arg2 harg2 arg3 harg3 arg4 harg4 arg5 harg5 hc0 hc1 x0 x1 x2 xs0 = step x0 x1 x2 xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  sl_unfold_words
  rw [View.canon_unit_zero hz]
  simp only [View.readAt_eq_ld, harg1.read_unread, harg2.read_unread, harg3.read_unread, harg5.read_unread,
    View.ld_unit_zero (S := S8192x3) hz, View.ld_unit_zero (S := S8192x9) hz, View.ld_unit_zero (S := S1x1) hz]

/-- The last point leaves the accumulator stepped, like a middle point; -/
theorem last_point (c : Dev nD) (i : grid0.Coords) (arg1 : Memref sig .tc .vmem S8192x3 .f32) (harg1 : arg1.IsWhole)
    (arg2 : Memref sig .tc .vmem S8192x3 .f32) (harg2 : arg2.IsWhole) (arg3 : Memref sig .tc .vmem S8192x9 .f32) (harg3 : arg3.IsWhole)
    (arg4 : Memref sig .tc .vmem S1x1 .f32) (harg4 : arg4.IsWhole) (arg5 : Memref sig .tc .vmem S1x1 .f32) (harg5 : arg5.IsWhole)
    (hc0 : ¬cond0_0 i) (hc1 : cond0_1 i)
    (x0 : Vec F S8192x3 .f32) (x1 : Vec F S8192x3 .f32) (x2 : Vec F S8192x9 .f32) (xs0 : Vec F S1x1 .f32) :
    sout0_C_0 c i arg1 harg1 arg2 harg2 arg3 harg3 arg4 harg4 arg5 harg5 hc0 hc1 x0 x1 x2 xs0 = step x0 x1 x2 xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero hz]
  simp only [View.readAt_eq_ld, harg1.read_unread, harg2.read_unread, harg3.read_unread, harg5.read_unread,
    View.ld_unit_zero (S := S8192x3) hz, View.ld_unit_zero (S := S8192x9) hz, View.ld_unit_zero (S := S1x1) hz]

/-- and its output block holds the same value: the accumulator read back after the store. -/
theorem last_point_output (c : Dev nD) (i : grid0.Coords) (arg1 : Memref sig .tc .vmem S8192x3 .f32) (harg1 : arg1.IsWhole)
    (arg2 : Memref sig .tc .vmem S8192x3 .f32) (harg2 : arg2.IsWhole) (arg3 : Memref sig .tc .vmem S8192x9 .f32) (harg3 : arg3.IsWhole)
    (arg4 : Memref sig .tc .vmem S1x1 .f32) (harg4 : arg4.IsWhole) (arg5 : Memref sig .tc .vmem S1x1 .f32) (harg5 : arg5.IsWhole)
    (hc0 : ¬cond0_0 i) (hc1 : cond0_1 i)
    (x0 : Vec F S8192x3 .f32) (x1 : Vec F S8192x3 .f32) (x2 : Vec F S8192x9 .f32) (xs0 : Vec F S1x1 .f32) :
    out0_C_3 c i arg1 harg1 arg2 harg2 arg3 harg3 arg4 harg4 arg5 harg5 hc0 hc1 x0 x1 x2 xs0 = step x0 x1 x2 xs0 := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero hz, View.readCov_unit_zero (S := S1x1) _ hz]
  simp only [View.readAt_eq_ld, harg1.read_unread, harg2.read_unread, harg3.read_unread, harg5.read_unread,
    View.ld_unit_zero (S := S8192x3) hz, View.ld_unit_zero (S := S8192x9) hz, View.ld_unit_zero (S := S1x1) hz]

end Cert.TriNll.Kernel

end
-- ==== Proof.LibColumnLayout.lean ====
/-
  Two layout operations read at an index given by coordinates, for a column kept as a trailing unit axis
  (`keepdims=True`): a vector `[a]` cast to a column `[a, 1]`, and a column `[a, 1]` broadcast along the rows of
  `[a, b]`. Each reads one element of its operand: the one with the same row.
-/
import Idealize.ShloMosaic.Lib.ValueLayout

namespace Cert.ColumnLayout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.TileSum.lean ====
import proofs.«173011_j43868795961969_2_alg».proof.Proof.TileTerms
import proofs.«173011_j43868795961969_2_alg».proof.Proof.KernelPieces
import proofs.«173011_j43868795961969_2_alg».proof.Proof.LibColumnLayout
import Idealize.ShloMosaic.PureOps.Ideal.Laws

/-!
# One step of the accumulator is "add the block's 8192 losses"

The body turns the block's two elementwise terms into the vector of the 8192 losses, regroups it as 64 rows of 128,
sums each row over its 128 entries, sums the 64 row sums, and adds the total to the accumulator. On the extended reals
each of the two reductions is a plain finite sum (a lane reduction into the zero accumulator is the sum over the
reduced axis), and 64 sums of 128 consecutive entries are the sum of all 8192. So the accumulator after the point is
the accumulator before it plus the sum of the block's losses, whatever the values.
-/

noncomputable section

namespace Cert.TriNll.Kernel

open Idealize.ShloMosaic
open Idealize.ShloMosaic.ValueIdx
open Cert.KernelIdeal
open Cert.KernelIdeal.Gen

/-- The loss of row `q` of a block: `nll` of the row's residual and of columns 0, 3, 4, 6, 7, 8 of its factor row. -/
def blockLoss (x0 x1 : Vec Ideal S8192x3 .f32) (x2 : Vec Ideal S8192x9 .f32) (q : Fin 8192) : EReal :=
  nll (x0 (ix2 q (0 : Fin 3)) - x1 (ix2 q (0 : Fin 3))) (x0 (ix2 q (1 : Fin 3)) - x1 (ix2 q (1 : Fin 3)))
    (x0 (ix2 q (2 : Fin 3)) - x1 (ix2 q (2 : Fin 3)))
    (x2 (ix2 q (0 : Fin 9))) (x2 (ix2 q (3 : Fin 9))) (x2 (ix2 q (4 : Fin 9)))
    (x2 (ix2 q (6 : Fin 9))) (x2 (ix2 q (7 : Fin 9))) (x2 (ix2 q (8 : Fin 9)))

/-- The sum over the 128 entries of each of 64 rows, into the zero accumulator: row `r`'s plain sum. -/
theorem rowsum_apply (v : FVec Ideal S64x128 .f32) (h : S64x128.Reduces [1] S64) (r : Fin 64) :
    multiReduction (F := Ideal) .add [1] S64 v 0x00000000#32 h (.inl rfl) rfl (ix1 r) = ∑ l : Fin 128, v (ix2 r l) :=
  (Ideal.multiReduction_add_single v 0x00000000#32 h (.inl rfl) rfl (ix1 r)).trans
    (Finset.sum_congr rfl fun l _ => congrArg v (funext fun a => Fin.ext (by
      match a with
      | ⟨0, _⟩ => rfl
      | ⟨1, _⟩ => rfl)))

/-- The sum of a column of 64 entries, into the zero accumulator: the plain sum of the column. -/
theorem colsum_apply (v : FVec Ideal S64x1 .f32) (h : S64x1.Reduces [0] S1) (i : Fin 1) :
    multiReduction (F := Ideal) .add [0] S1 v 0x00000000#32 h (.inl rfl) rfl (ix1 i) = ∑ k : Fin 64, v (ix2 k i) :=
  (Ideal.multiReduction_add_single v 0x00000000#32 h (.inl rfl) rfl (ix1 i)).trans
    (Finset.sum_congr rfl fun k _ => congrArg v (funext fun a => Fin.ext (by
      match a with
      | ⟨0, _⟩ => rfl
      | ⟨1, _⟩ => rfl)))

/-- THE STEP: the accumulator after a point is the accumulator before it plus the sum of the block's 8192 losses. -/
theorem step_apply (x0 x1 : Vec Ideal S8192x3 .f32) (x2 : Vec Ideal S8192x9 .f32) (a : Vec Ideal S1x1 .f32) (y : S1x1.Idx) :
    step (F := Ideal) x0 x1 x2 a y = a y + ∑ q : Fin 8192, blockLoss x0 x1 x2 q := by
  obtain ⟨i, u, rfl⟩ : ∃ (i u : Fin 1), y = ix2 i u := ⟨y 0, y 1, eq_ix2 y⟩
  rw [← sum_blocks 64 128 (blockLoss x0 x1 x2)]
  unfold step k0_pay1
  simp only [shapeCast_self, addf_apply]
  refine congrArg (a (ix2 i u) + ·) ?_
  refine (Cert.ColumnLayout.shapeCast_a_a1_apply _ _ i u).trans ?_
  refine (colsum_apply _ _ i).trans (Finset.sum_congr rfl fun k _ => ?_)
  refine (Cert.ColumnLayout.shapeCast_a_a1_apply _ _ k i).trans ?_
  refine (rowsum_apply _ _ k).trans (Finset.sum_congr rfl fun l _ => ?_)
  refine (regroup_apply _ _ k l).trans ?_
  simp only [mulf_apply, addf_apply, broadcast_apply, sqnorm_apply, logdiag_apply]
  rfl

end Cert.TriNll.Kernel

end
-- ==== Proof.BlockRows.lean ====
import proofs.«173011_j43868795961969_2_alg».proof.Proof.TileSum
import Idealize.ShloMosaic.Lib.Pipeline.Value

/-!
# The rows a grid point works on

Grid point `t` of the 512 fetches, from each of the three flattened arrays, the block of rows `8192 t … 8192 t + 8191`
(block index `(t, 0)`, block size `8192 × 3` or `8192 × 9`): entry `(q, k)` of the block is the array's entry
`(8192 t + q, k)`. So the loss of row `q` of point `t`'s blocks is the loss of row `8192 t + q` of the arrays, and the
512 blocks together are all `2²²` rows.
-/

noncomputable section

namespace Cert.TriNll.Kernel

open Idealize.ShloMosaic
open Idealize.ShloMosaic.TcCoe
open Idealize.ShloMosaic.ValueIdx
open Idealize.SL.Sem
open Cert.KernelIdeal
open Cert.KernelIdeal.Gen

/-- Row `q` of point `t`'s block, as a row of the arrays. -/
def rowAt (t : Fin cfg0.N) (q : Fin 8192) : Fin 4194304 :=
  ⟨t.val * 8192 + q.val, by have := lt_of_lt_of_eq t.isLt (show cfg0.N = 512 from N_0); have := q.isLt; omega⟩

section
variable {F : FTy → Type} [FloatOps F]
variable (m : (ℓ : Loc nD τ sig) → Buf (Elt F) ℓ)

theorem idx_facts0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Entry `(q, k)` of window 0's block at point `t` is the array's entry `(8192 t + q, k)`. -/
theorem block0_apply (c : Dev nD) (t : Fin cfg0.N) (q : Fin 8192) (k : Fin 3) :
    (iblk m c 0 t : Vec F S8192x3 .f32) (ix2 q k) = V m c main_v0 (ix2 (rowAt t q) k) := by
  unfold iblk
  rw [View.read_apply]
  show V m c main_v0 _ = V m c main_v0 _
  congr 1
  funext a
  apply Fin.ext
  match a with
  | ⟨0, _⟩ =>
    show win0_0.index t 0 * 8192 + 1 * q.val = t.val * 8192 + q.val
    rw [(idx_facts0 t).1]; omega
  | ⟨1, _⟩ =>
    show win0_0.index t 1 * 3 + 1 * k.val = k.val
    rw [(idx_facts0 t).2]; omega

theorem idx_facts1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Entry `(q, k)` of window 1's block at point `t` is the array's entry `(8192 t + q, k)`. -/
theorem block1_apply (c : Dev nD) (t : Fin cfg0.N) (q : Fin 8192) (k : Fin 3) :
    (iblk m c 1 t : Vec F S8192x3 .f32) (ix2 q k) = V m c main_v1 (ix2 (rowAt t q) k) := by
  unfold iblk
  rw [View.read_apply]
  show V m c main_v1 _ = V m c main_v1 _
  congr 1
  funext a
  apply Fin.ext
  match a with
  | ⟨0, _⟩ =>
    show win0_1.index t 0 * 8192 + 1 * q.val = t.val * 8192 + q.val
    rw [(idx_facts1 t).1]; omega
  | ⟨1, _⟩ =>
    show win0_1.index t 1 * 3 + 1 * k.val = k.val
    rw [(idx_facts1 t).2]; omega

theorem idx_facts2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)

/-- Entry `(q, k)` of window 2's block at point `t` is the array's entry `(8192 t + q, k)`. -/
theorem block2_apply (c : Dev nD) (t : Fin cfg0.N) (q : Fin 8192) (k : Fin 9) :
    (iblk m c 2 t : Vec F S8192x9 .f32) (ix2 q k) = V m c main_v2 (ix2 (rowAt t q) k) := by
  unfold iblk
  rw [View.read_apply]
  show V m c main_v2 _ = V m c main_v2 _
  congr 1
  funext a
  apply Fin.ext
  match a with
  | ⟨0, _⟩ =>
    show win0_2.index t 0 * 8192 + 1 * q.val = t.val * 8192 + q.val
    rw [(idx_facts2 t).1]; omega
  | ⟨1, _⟩ =>
    show win0_2.index t 1 * 9 + 1 * k.val = k.val
    rw [(idx_facts2 t).2]; omega

end

/-- The loss of row `q` of point `t`'s blocks is the loss of row `8192 t + q` of the flattened arrays. -/
theorem blockLoss_rows (m : (ℓ : Loc nD τ sig) → Buf (Elt Ideal) ℓ) (c : Dev nD) (t : Fin cfg0.N) (q : Fin 8192) :
    blockLoss (iblk m c 0 t) (iblk m c 1 t) (iblk m c 2 t) q
      = rowLoss (V m c main_v0) (V m c main_v1) (V m c main_v2) (rowAt t q) := by
  unfold blockLoss rowLoss
  rw [block0_apply m c t q (0 : Fin 3), block1_apply m c t q (0 : Fin 3), block0_apply m c t q (1 : Fin 3), block1_apply m c t q (1 : Fin 3), block0_apply m c t q (2 : Fin 3), block1_apply m c t q (2 : Fin 3), block2_apply m c t q (0 : Fin 9), block2_apply m c t q (3 : Fin 9), block2_apply m c t q (4 : Fin 9), block2_apply m c t q (6 : Fin 9), block2_apply m c t q (7 : Fin 9), block2_apply m c t q (8 : Fin 9)]

end Cert.TriNll.Kernel

end
-- ==== Proof.Accumulate.lean ====
import proofs.«173011_j43868795961969_2_alg».proof.Proof.BlockRows

/-!
# The accumulator over the 512 grid points

The accumulator is zeroed at the first point and stepped at every point, so after point `n` it holds the step applied
to the blocks of points `0, 1, …, n` in turn, starting from zero: an induction on the point, over the three kinds of
point. On the extended reals a step adds the sum of its block's losses, so after point `n` the accumulator is the sum of
the losses of rows `0 … 8192 (n + 1) − 1`; after the last point, of all `2²²` rows — and that is also what the last
point copies into the output block. Only the commutative-monoid laws of addition are used: no entry need be finite.
-/

noncomputable section

namespace Cert.TriNll.Kernel

open Idealize.ShloMosaic
open Idealize.ShloMosaic.TcCoe
open Idealize.ShloMosaic.ValueIdx
open Idealize.SL.Sem
open Cert.KernelIdeal
open Cert.KernelIdeal.Gen

section
variable {F : FTy → Type} [FloatOps F]
variable (m : (ℓ : Loc nD τ sig) → Buf (Elt F) ℓ)

/-- The accumulator after point `n`: zero, stepped through the blocks of points `0 … n`. -/
def running (c : Dev nD) : (n : ℕ) → n < cfg0.N → Vec F S1x1 .f32
  | 0, h => step (iblk m c 0 ⟨0, h⟩) (iblk m c 1 ⟨0, h⟩) (iblk m c 2 ⟨0, h⟩) (k0_pay2 (F := F))
  | n + 1, h => step (iblk m c 0 ⟨n + 1, h⟩) (iblk m c 1 ⟨n + 1, h⟩) (iblk m c 2 ⟨n + 1, h⟩)
      (running c n (Nat.lt_of_succ_lt h))

/-- What the accumulator holds after each point is that running value. -/
theorem scratch_eq (c : Dev nD) : ∀ (n : ℕ) (h : n < cfg0.N), (outsAt0 m c n h).2 = running m c n h
  | 0, h => by
    rw [outsAt0_A m c ⟨0, h⟩ (Nat.zero_mod _) (show ¬(0 : ℕ) % 512 = 511 by decide)]
    dsimp only
    exact first_point (F := F) ..
  | n + 1, h => by
    have hN : n + 1 < 512 := lt_of_lt_of_eq h (show cfg0.N = 512 from N_0)
    have h0 : ¬(⟨n + 1, h⟩ : Fin cfg0.N).val % 512 = 0 := by dsimp only; omega
    by_cases h1 : (⟨n + 1, h⟩ : Fin cfg0.N).val % 512 = 511
    · rw [outsAt0_C m c ⟨n + 1, h⟩ h0 h1]
      dsimp only
      refine (last_point (F := F) ..).trans ?_
      show step _ _ _ (outsAt0 m c n _).2 = step _ _ _ (running m c n _)
      rw [scratch_eq c n]
    · rw [outsAt0_B m c ⟨n + 1, h⟩ h0 h1]
      dsimp only
      refine (middle_point (F := F) ..).trans ?_
      show step _ _ _ (outsAt0 m c n _).2 = step _ _ _ (running m c n _)
      rw [scratch_eq c n]

/-- The last point's output block holds the running value after it. -/
theorem output_eq (c : Dev nD) (n : ℕ) (h : n + 1 < cfg0.N) (h1 : (n + 1) % 512 = 511) :
    (outsAt0 m c (n + 1) h).1 = running m c (n + 1) h := by
  have hN : n + 1 < 512 := lt_of_lt_of_eq h (show cfg0.N = 512 from N_0)
  have h0 : ¬(⟨n + 1, h⟩ : Fin cfg0.N).val % 512 = 0 := by dsimp only; omega
  rw [outsAt0_C m c ⟨n + 1, h⟩ h0 h1]
  dsimp only
  refine (last_point_output (F := F) ..).trans ?_
  show step _ _ _ (outsAt0 m c n _).2 = step _ _ _ (running m c n _)
  rw [scratch_eq m c n]

end

/-! ## At the extended reals: the running value is a sum of losses -/

variable (m : (ℓ : Loc nD τ sig) → Buf (Elt Ideal) ℓ)

/-- The sum of the losses of point `s`'s 8192 rows (zero past the grid, so that sums need no bound). -/
def tile (c : Dev nD) (s : ℕ) : EReal :=
  if h : s < cfg0.N then ∑ q : Fin 8192, rowLoss (V m c main_v0) (V m c main_v1) (V m c main_v2) (rowAt ⟨s, h⟩ q) else 0

/-- A step at point `t` adds that point's tile. -/
theorem step_tile (c : Dev nD) (t : Fin cfg0.N) (a : Vec Ideal S1x1 .f32) (y : S1x1.Idx) :
    step (iblk m c 0 t) (iblk m c 1 t) (iblk m c 2 t) a y = a y + tile m c t.val := by
  rw [step_apply]
  unfold tile
  rw [dif_pos t.isLt]
  exact congrArg (a y + ·) (Finset.sum_congr rfl fun q _ => blockLoss_rows m c t q)

/-- After point `n` the accumulator is the sum of the tiles of points `0 … n`. -/
theorem running_apply (c : Dev nD) : ∀ (n : ℕ) (h : n < cfg0.N) (y : S1x1.Idx),
    running m c n h y = ∑ s ∈ Finset.range (n + 1), tile m c s
  | 0, h, y => by
    show step (iblk m c 0 ⟨0, h⟩) (iblk m c 1 ⟨0, h⟩) (iblk m c 2 ⟨0, h⟩) (k0_pay2 (F := Ideal)) y = _
    rw [step_tile m c ⟨0, h⟩, Finset.sum_range_one]
    show Ideal.ofBits .f32 0x00000000#32 + _ = _
    rw [Ideal.ofBits_zero_f32, zero_add]
  | n + 1, h, y => by
    show step (iblk m c 0 ⟨n + 1, h⟩) (iblk m c 1 ⟨n + 1, h⟩) (iblk m c 2 ⟨n + 1, h⟩) (running m c n _) y = _
    rw [step_tile m c ⟨n + 1, h⟩, running_apply c n, Finset.sum_range_succ _ (n + 1)]

/-- After the last point it is the sum of the losses of all `2²²` rows. -/
theorem running_total (c : Dev nD) (h : 511 < cfg0.N) (y : S1x1.Idx) :
    running m c 511 h y = ∑ n : Fin 4194304, rowLoss (V m c main_v0) (V m c main_v1) (V m c main_v2) n := by
  rw [running_apply m c 511 h y, Finset.sum_range,
    ← sum_blocks 512 8192 (rowLoss (V m c main_v0) (V m c main_v1) (V m c main_v2))]
  refine Finset.sum_congr rfl fun t _ => ?_
  have ht : t.val < cfg0.N := lt_of_lt_of_eq t.isLt (show cfg0.N = 512 from N_0).symm
  unfold tile
  rw [dif_pos ht]
  rfl

end Cert.TriNll.Kernel

end
-- ==== Proof.KernelMean.lean ====
import proofs.«173011_j43868795961969_2_alg».proof.Proof.Accumulate
import Idealize.ShloMosaic.Lib.Pipeline.Value
import Idealize.ShloMosaic.Lib.StableHlo.Run

/-!
# The kernel's result is the mean loss over the rows

The output block is written back once, after the last grid point, and it is the whole `1 × 1` output array; so the array
ends holding the accumulator's final value, the sum of the losses of all `2²²` rows. The lines after the region read
that one entry as a scalar and divide it by the number of problems. The arrays the region works on are the three
arguments flattened to one row per problem by the lines before the region. So the program's result is the mean loss of
the flattened arguments — the same function of the arguments as the reference's.
-/

noncomputable section

namespace Cert.TriNll.Kernel

open Idealize.ShloMosaic
open Idealize.ShloMosaic.TcCoe
open Idealize.ShloMosaic.ValueIdx
open Idealize.SL.Sem
open Idealize.ShloMosaic.Pipeline (Dat)
open Cert.KernelIdeal
open Cert.KernelIdeal.Gen

section
variable {F : FTy → Type} [FloatOps F]
variable (m : (ℓ : Loc nD τ sig) → Buf (Elt F) ℓ) (ρ : Dev nD → PrngReg)

/-- The last grid point. -/
abbrev lastPt : Fin cfg0.N := ⟨511, by rw [show cfg0.N = 512 from N_0]; decide⟩

/-- The output array after the run: the accumulator's running value after the last point (the array is one `1 × 1` block). -/
abbrev result (c : Dev nD) : Buf (Elt F) ((c : Thread nD τ).loc main_v3) := running m c lastPt.val lastPt.isLt

/-- The one write-back, at the last point, writes that value: block `(0, 0)` of the `1 × 1` array read through zero
    offsets is the array. -/
theorem flushed_eq (c : Dev nD) (t : Fin cfg0.N) (hf : (cfg0.win 3).flush t = true) :
    (dats m 0 c).flushed 3 t = ((cfg0.win 3).blk t).view.read (Elt F) (result m c) := by
  have hN : cfg0.N = 512 := N_0
  have h511 : t.val = 511 := by have := (flush0_3 t).mp hf; have := t.isLt; omega
  obtain rfl : t = lastPt := Fin.ext h511
  show (cfg0.win 3).cut (grid0.coords lastPt) ((dats m 0 c).after 3 lastPt) = _
  rw [after0_3]
  rw [show (outsAt0 m c lastPt.val lastPt.isLt).1 = result m c from output_eq m c 510 lastPt.isLt (by decide)]
  have hz' : (fun a => win0_3.index lastPt a * main_v3.ty.shape.size a) = fun _ => 0 := funext fun a => by fin_cases a <;> decide
  exact (Memref.read_access_unit_zero (Elt F) main_v3 hz' (fun a => by rw [congrFun hz' a]; simp) (result m c)).symm

/-- So the output array ends holding it: the last point's block covers the whole array. -/
theorem final (c : Dev nD) : (dats m 0 c).arrAt 3 cfg0.N = result m c :=
  (dats m 0 c).arrAt_eq_of_cover 3 (result m c) (flushed_eq m c) fun i =>
    ⟨lastPt, (flush0_3 lastPt).mpr rfl, by
      show i ∈ ((View.whole main_v3).slice (win0_3.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index lastPt 0 * win0_3.size 0 ≤ (i 0 : Nat) ∧ (i 0 : Nat) < win0_3.index lastPt 0 * win0_3.size 0 + win0_3.xsize (grid0.coords lastPt) 0
        rw [show win0_3.index lastPt 0 * win0_3.size 0 = 0 from by decide +kernel, show win0_3.xsize (grid0.coords lastPt) 0 = 1 from by decide +kernel]; omega
      | ⟨1, _⟩ =>
        show win0_3.index lastPt 1 * win0_3.size 1 ≤ (i 1 : Nat) ∧ (i 1 : Nat) < win0_3.index lastPt 1 * win0_3.size 1 + win0_3.xsize (grid0.coords lastPt) 1
        rw [show win0_3.index lastPt 1 * win0_3.size 1 = 0 from by decide +kernel, show win0_3.xsize (grid0.coords lastPt) 1 = 1 from by decide +kernel]; omega⟩

/-- The lines after the region: the output array's entry as a scalar, divided by the count. -/
theorem tail_result (c : Dev nD) : Pipeline.afterTail₀ cfgs (dats m) 0 (V0 m) [hostOps1] c main_v5
    = Host.divf (F := F) (shapeCast S_ (result m c) shapeCasts_S1x1_S_) (constant (F := F) S_ .f32 0x4A800000#32) := by
  unfold Pipeline.afterTail₀
  show StableHlo.after hostOps1 _ (Proc.devRef .tc main_v5) = _
  after_results
  refine congrArg (fun v => Host.divf (F := F) v (constant (F := F) S_ .f32 0x4A800000#32)) ?_
  funext i
  show shapeCast S_ (Pipeline.withArrays (cfgs 0).spec c (V0 m c) (fun w => (dats m 0 c).arrAt w (cfgs 0).N)
      (Proc.devRef .tc main_v3)) shapeCasts_S1x1_S_ i = _
  exact congrArg (fun x => shapeCast S_ x shapeCasts_S1x1_S_ i)
    ((Pipeline.withArrays_arr spec0 launch0.win.arr_inj c _ _ 3).trans (final m c))

/-- THE KERNEL'S RUN: every weakly fair execution terminates with the result at that quotient and the three arguments
    as they were. -/
theorem kernel_run : θ_run defs (onTc (τ := τ) (main (F := F))) ⟨m, fun _ => 0, ρ⟩ (fun r => ∀ c : Dev nD,
      r.2.mem ((c.tc : Thread nD τ).loc main_v5)
        = Host.divf (F := F) (shapeCast S_ (result m c) shapeCasts_S1x1_S_) (constant (F := F) S_ .f32 0x4A800000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- The arrays the region works on are the arguments, flattened by the lines before it. -/
theorem V_flat0 (c : Dev nD) : (V m c main_v0 : S4194304x3.Idx → Elt F .f32)
    = shapeCast S4194304x3 (m ((c.tc : Thread nD τ).loc main_arg0)) shapeCasts_S256x512x32x3_S4194304x3 := by
  show StableHlo.after hostOps0 (fun b => m (c, b)) (Proc.devRef .tc main_v0) = _
  after_results; rfl
theorem V_flat1 (c : Dev nD) : (V m c main_v1 : S4194304x3.Idx → Elt F .f32)
    = shapeCast S4194304x3 (m ((c.tc : Thread nD τ).loc main_arg1)) shapeCasts_S256x512x32x3_S4194304x3 := by
  show StableHlo.after hostOps0 (fun b => m (c, b)) (Proc.devRef .tc main_v1) = _
  after_results; rfl
theorem V_flat2 (c : Dev nD) : (V m c main_v2 : S4194304x9.Idx → Elt F .f32)
    = shapeCast S4194304x9 (m ((c.tc : Thread nD τ).loc main_arg2)) shapeCasts_S256x512x32x3x3_S4194304x9 := by
  show StableHlo.after hostOps0 (fun b => m (c, b)) (Proc.devRef .tc main_v2) = _
  after_results; rfl

end

/-- THE KERNEL'S RESULT at the extended reals: the mean loss of the arguments flattened to one row per problem. -/
theorem kernel_mean (m : (ℓ : Loc nD τ sig) → Buf (Elt Ideal) ℓ) (c : Dev nD) (i : S_.Idx) :
    Host.divf (F := Ideal) (shapeCast S_ (result m c) shapeCasts_S1x1_S_) (constant (F := Ideal) S_ .f32 0x4A800000#32) i
      = meanLoss (shapeCast Vec3Rows (m ((c.tc : Thread nD τ).loc main_arg0)) shapeCasts_S256x512x32x3_S4194304x3)
          (shapeCast Vec3Rows (m ((c.tc : Thread nD τ).loc main_arg1)) shapeCasts_S256x512x32x3_S4194304x3)
          (shapeCast Mat9Rows (m ((c.tc : Thread nD τ).loc main_arg2)) shapeCasts_S256x512x32x3x3_S4194304x9) := by
  show Ideal.div (shapeCast S_ (result m c) shapeCasts_S1x1_S_ i) (Ideal.ofBits .f32 0x4A800000#32) = _
  have e : result m c (ix2 (0 : Fin 1) (0 : Fin 1))
      = ∑ n : Fin 4194304, rowLoss (V m c main_v0) (V m c main_v1) (V m c main_v2) n := running_total m c lastPt.isLt _
  rw [scalar_apply, e, V_flat0, V_flat1, V_flat2]
  rfl

end Cert.TriNll.Kernel

end
-- ==== Proof.RefEntries.lean ====
import proofs.«173011_j43868795961969_2_alg».proof.Proof.Gen.ReferenceIdeal.Read
import Idealize.ShloMosaic.Lib.ValueIdx

/-!
# The entries the reference reads for one problem

For problem `(b, s, j)` the reference takes each entry it needs by cutting a unit slice out of an argument and dropping
the unit axes: entry `k` of the residual is the difference of the two vectors' entries `(b, s, j, k)`, and entry
`(r, c)` of the factor is the third argument's `(b, s, j, r, c)`. Dropping a unit axis keeps the row-major position,
which for `(b, s, j)` is `(512 b + s) · 32 + j`; dividing it back out returns `b`, `s` and `j`.
-/

noncomputable section

namespace Cert.TriNll.Ref

open Idealize.ShloMosaic
open Idealize.ShloMosaic.ValueIdx
open Cert.ReferenceIdeal
open Cert.ReferenceIdeal.Gen
open Cert.ReferenceIdeal.Read

/-- Entry 0 of the residual of problem `(b, s, j)`. -/
theorem resid0 (x0 x1 : (⟨S256x512x32x3, .f32⟩ : BufTy).Contents (Elt Ideal)) (b : Fin 256) (s : Fin 512) (j : Fin 32) :
    val_main_v7 (F := Ideal) x0 x1 (ix3 b s j) = x0 (ix4 b s j (0 : Fin 3)) - x1 (ix4 b s j (0 : Fin 3)) := by
  have e : idx_main_v6 (idx_main_v7 (ix3 b s j)) = ix4 b s j (0 : Fin 3) := by
    have hb := b.isLt; have hs := s.isLt; have hj := j.isLt
    funext a; refine Fin.ext ?_
    match a with
    | ⟨0, _⟩ => show ((b.val * 512 + s.val) * 32 + j.val) / 16384 = b.val; omega
    | ⟨1, _⟩ => show ((b.val * 512 + s.val) * 32 + j.val) / 32 % 512 = s.val; omega
    | ⟨2, _⟩ => show ((b.val * 512 + s.val) * 32 + j.val) / 1 % 32 = j.val; omega
    | ⟨3, _⟩ => rfl
  rw [val_main_v7_apply, val_main_v6_apply, val_main_v5_apply, e]
  rfl

/-- Entry 1 of the residual of problem `(b, s, j)`. -/
theorem resid1 (x0 x1 : (⟨S256x512x32x3, .f32⟩ : BufTy).Contents (Elt Ideal)) (b : Fin 256) (s : Fin 512) (j : Fin 32) :
    val_main_v12 (F := Ideal) x0 x1 (ix3 b s j) = x0 (ix4 b s j (1 : Fin 3)) - x1 (ix4 b s j (1 : Fin 3)) := by
  have e : idx_main_v11 (idx_main_v12 (ix3 b s j)) = ix4 b s j (1 : Fin 3) := by
    have hb := b.isLt; have hs := s.isLt; have hj := j.isLt
    funext a; refine Fin.ext ?_
    match a with
    | ⟨0, _⟩ => show ((b.val * 512 + s.val) * 32 + j.val) / 16384 = b.val; omega
    | ⟨1, _⟩ => show ((b.val * 512 + s.val) * 32 + j.val) / 32 % 512 = s.val; omega
    | ⟨2, _⟩ => show ((b.val * 512 + s.val) * 32 + j.val) / 1 % 32 = j.val; omega
    | ⟨3, _⟩ => rfl
  rw [val_main_v12_apply, val_main_v11_apply, val_main_v5_apply, e]
  rfl

/-- Entry 2 of the residual of problem `(b, s, j)`. -/
theorem resid2 (x0 x1 : (⟨S256x512x32x3, .f32⟩ : BufTy).Contents (Elt Ideal)) (b : Fin 256) (s : Fin 512) (j : Fin 32) :
    val_main_v21 (F := Ideal) x0 x1 (ix3 b s j) = x0 (ix4 b s j (2 : Fin 3)) - x1 (ix4 b s j (2 : Fin 3)) := by
  have e : idx_main_v20 (idx_main_v21 (ix3 b s j)) = ix4 b s j (2 : Fin 3) := by
    have hb := b.isLt; have hs := s.isLt; have hj := j.isLt
    funext a; refine Fin.ext ?_
    match a with
    | ⟨0, _⟩ => show ((b.val * 512 + s.val) * 32 + j.val) / 16384 = b.val; omega
    | ⟨1, _⟩ => show ((b.val * 512 + s.val) * 32 + j.val) / 32 % 512 = s.val; omega
    | ⟨2, _⟩ => show ((b.val * 512 + s.val) * 32 + j.val) / 1 % 32 = j.val; omega
    | ⟨3, _⟩ => rfl
  rw [val_main_v21_apply, val_main_v20_apply, val_main_v5_apply, e]
  rfl

/-- Entry `(0, 0)` of the factor of problem `(b, s, j)`. -/
theorem factor00 (x2 : (⟨S256x512x32x3x3, .f32⟩ : BufTy).Contents (Elt Ideal)) (b : Fin 256) (s : Fin 512) (j : Fin 32) :
    val_main_v9 (F := Ideal) x2 (ix3 b s j) = x2 (ix5 b s j (0 : Fin 3) (0 : Fin 3)) := by
  have e : idx_main_v8 (idx_main_v9 (ix3 b s j)) = ix5 b s j (0 : Fin 3) (0 : Fin 3) := by
    have hb := b.isLt; have hs := s.isLt; have hj := j.isLt
    funext a; refine Fin.ext ?_
    match a with
    | ⟨0, _⟩ => show ((b.val * 512 + s.val) * 32 + j.val) / 16384 = b.val; omega
    | ⟨1, _⟩ => show ((b.val * 512 + s.val) * 32 + j.val) / 32 % 512 = s.val; omega
    | ⟨2, _⟩ => show ((b.val * 512 + s.val) * 32 + j.val) / 1 % 32 = j.val; omega
    | ⟨3, _⟩ => rfl
    | ⟨4, _⟩ => rfl
  rw [val_main_v9_apply, val_main_v8_apply, e]

/-- Entry `(1, 0)` of the factor of problem `(b, s, j)`. -/
theorem factor10 (x2 : (⟨S256x512x32x3x3, .f32⟩ : BufTy).Contents (Elt Ideal)) (b : Fin 256) (s : Fin 512) (j : Fin 32) :
    val_main_v14 (F := Ideal) x2 (ix3 b s j) = x2 (ix5 b s j (1 : Fin 3) (0 : Fin 3)) := by
  have e : idx_main_v13 (idx_main_v14 (ix3 b s j)) = ix5 b s j (1 : Fin 3) (0 : Fin 3) := by
    have hb := b.isLt; have hs := s.isLt; have hj := j.isLt
    funext a; refine Fin.ext ?_
    match a with
    | ⟨0, _⟩ => show ((b.val * 512 + s.val) * 32 + j.val) / 16384 = b.val; omega
    | ⟨1, _⟩ => show ((b.val * 512 + s.val) * 32 + j.val) / 32 % 512 = s.val; omega
    | ⟨2, _⟩ => show ((b.val * 512 + s.val) * 32 + j.val) / 1 % 32 = j.val; omega
    | ⟨3, _⟩ => rfl
    | ⟨4, _⟩ => rfl
  rw [val_main_v14_apply, val_main_v13_apply, e]

/-- Entry `(1, 1)` of the factor of problem `(b, s, j)`. -/
theorem factor11 (x2 : (⟨S256x512x32x3x3, .f32⟩ : BufTy).Contents (Elt Ideal)) (b : Fin 256) (s : Fin 512) (j : Fin 32) :
    val_main_v18 (F := Ideal) x2 (ix3 b s j) = x2 (ix5 b s j (1 : Fin 3) (1 : Fin 3)) := by
  have e : idx_main_v17 (idx_main_v18 (ix3 b s j)) = ix5 b s j (1 : Fin 3) (1 : Fin 3) := by
    have hb := b.isLt; have hs := s.isLt; have hj := j.isLt
    funext a; refine Fin.ext ?_
    match a with
    | ⟨0, _⟩ => show ((b.val * 512 + s.val) * 32 + j.val) / 16384 = b.val; omega
    | ⟨1, _⟩ => show ((b.val * 512 + s.val) * 32 + j.val) / 32 % 512 = s.val; omega
    | ⟨2, _⟩ => show ((b.val * 512 + s.val) * 32 + j.val) / 1 % 32 = j.val; omega
    | ⟨3, _⟩ => rfl
    | ⟨4, _⟩ => rfl
  rw [val_main_v18_apply, val_main_v17_apply, e]

/-- Entry `(2, 0)` of the factor of problem `(b, s, j)`. -/
theorem factor20 (x2 : (⟨S256x512x32x3x3, .f32⟩ : BufTy).Contents (Elt Ideal)) (b : Fin 256) (s : Fin 512) (j : Fin 32) :
    val_main_v23 (F := Ideal) x2 (ix3 b s j) = x2 (ix5 b s j (2 : Fin 3) (0 : Fin 3)) := by
  have e : idx_main_v22 (idx_main_v23 (ix3 b s j)) = ix5 b s j (2 : Fin 3) (0 : Fin 3) := by
    have hb := b.isLt; have hs := s.isLt; have hj := j.isLt
    funext a; refine Fin.ext ?_
    match a with
    | ⟨0, _⟩ => show ((b.val * 512 + s.val) * 32 + j.val) / 16384 = b.val; omega
    | ⟨1, _⟩ => show ((b.val * 512 + s.val) * 32 + j.val) / 32 % 512 = s.val; omega
    | ⟨2, _⟩ => show ((b.val * 512 + s.val) * 32 + j.val) / 1 % 32 = j.val; omega
    | ⟨3, _⟩ => rfl
    | ⟨4, _⟩ => rfl
  rw [val_main_v23_apply, val_main_v22_apply, e]

/-- Entry `(2, 1)` of the factor of problem `(b, s, j)`. -/
theorem factor21 (x2 : (⟨S256x512x32x3x3, .f32⟩ : BufTy).Contents (Elt Ideal)) (b : Fin 256) (s : Fin 512) (j : Fin 32) :
    val_main_v27 (F := Ideal) x2 (ix3 b s j) = x2 (ix5 b s j (2 : Fin 3) (1 : Fin 3)) := by
  have e : idx_main_v26 (idx_main_v27 (ix3 b s j)) = ix5 b s j (2 : Fin 3) (1 : Fin 3) := by
    have hb := b.isLt; have hs := s.isLt; have hj := j.isLt
    funext a; refine Fin.ext ?_
    match a with
    | ⟨0, _⟩ => show ((b.val * 512 + s.val) * 32 + j.val) / 16384 = b.val; omega
    | ⟨1, _⟩ => show ((b.val * 512 + s.val) * 32 + j.val) / 32 % 512 = s.val; omega
    | ⟨2, _⟩ => show ((b.val * 512 + s.val) * 32 + j.val) / 1 % 32 = j.val; omega
    | ⟨3, _⟩ => rfl
    | ⟨4, _⟩ => rfl
  rw [val_main_v27_apply, val_main_v26_apply, e]

/-- Entry `(2, 2)` of the factor of problem `(b, s, j)`. -/
theorem factor22 (x2 : (⟨S256x512x32x3x3, .f32⟩ : BufTy).Contents (Elt Ideal)) (b : Fin 256) (s : Fin 512) (j : Fin 32) :
    val_main_v31 (F := Ideal) x2 (ix3 b s j) = x2 (ix5 b s j (2 : Fin 3) (2 : Fin 3)) := by
  have e : idx_main_v30 (idx_main_v31 (ix3 b s j)) = ix5 b s j (2 : Fin 3) (2 : Fin 3) := by
    have hb := b.isLt; have hs := s.isLt; have hj := j.isLt
    funext a; refine Fin.ext ?_
    match a with
    | ⟨0, _⟩ => show ((b.val * 512 + s.val) * 32 + j.val) / 16384 = b.val; omega
    | ⟨1, _⟩ => show ((b.val * 512 + s.val) * 32 + j.val) / 32 % 512 = s.val; omega
    | ⟨2, _⟩ => show ((b.val * 512 + s.val) * 32 + j.val) / 1 % 32 = j.val; omega
    | ⟨3, _⟩ => rfl
    | ⟨4, _⟩ => rfl
  rw [val_main_v31_apply, val_main_v30_apply, e]

end Cert.TriNll.Ref

end
-- ==== Proof.RefDiag.lean ====
import proofs.«173011_j43868795961969_2_alg».proof.Proof.Gen.ReferenceIdeal.Read
import Idealize.ShloMosaic.Lib.ValueIdx

/-!
# The diagonal of the factor, as the reference takes it

The reference reads the diagonal of each 3×3 factor by a gather: entry `d` of problem `(b, s, j)` is the operand at
`(b, s, j, r, c)` where `(r, c)` is row `d` of a 3×2 table of start indices, each clamped into `0 … 2`. The table is
built from the sequence `0, 1, 2` twice — a negative entry would have 3 added, and none is negative — so its row `d`
is `(d, d)`, the clamp changes nothing, and the gathered entry is the factor's `(d, d)`.
-/

noncomputable section

namespace Cert.TriNll.Ref

open Idealize.ShloMosaic
open Idealize.ShloMosaic.ValueIdx
open Cert.ReferenceIdeal
open Cert.ReferenceIdeal.Gen
open Cert.ReferenceIdeal.Read

/-- Row `d` of the table of start indices is `(d, d)`: a finite check over its six entries. -/
theorem startIdx : ∀ (d : Fin 3) (e : Fin 2), val_main_call0_v14 (F := Ideal) (ix2 d e) = BitVec.ofNat 32 d.val := by decide

/-- Read as a signed integer and clamped into `0 … 2`, the entry `d` is `d`. -/
theorem clampIdx : ∀ d : Fin 3, min (BitVec.ofNat 32 d.val).toInt.toNat (3 - 1) = d.val := by decide

/-- The gather's dimension numbers: the three problem axes are copied whole, the factor's two axes are the ones the
    start indices address, one entry along each. -/
abbrev diagDims : GatherDims S256x512x32x3x3 S3x2 S256x512x32x3 :=
  gather_S256x512x32x3x3_S3x2_S256x512x32x3_012_34_n_n_34_1_2565123211

/-! The operand index of result entry `(b, s, j, d)`, axis by axis: on a problem axis the result's own coordinate
    (no start index, no batching), on a factor axis the clamped start index of row `d`. -/

theorem operandIdx_axis0 (b : Fin 256) (s : Fin 512) (j : Fin 32) (d : Fin 3) :
    (diagDims.operandIdx (ix4 b s j d) (val_main_call0_v14 (F := Ideal)) (0 : Fin 5)).val = b.val := by
  show diagDims.start (ix4 b s j d) _ (0 : Fin 5) + diagDims.batchCoord (ix4 b s j d) (0 : Fin 5)
    + diagDims.offCoord (ix4 b s j d) (0 : Fin 5) = _
  rw [GatherDims.batchCoord_eq_zero _ _ _ List.not_mem_nil]
  unfold GatherDims.start
  rw [dif_neg (by decide)]
  unfold GatherDims.offCoord
  rw [dif_pos (by decide)]
  simp only [Nat.zero_add]
  refine (congrArg (fun a => ((ix4 b s j d) a).val) (?_ : _ = (0 : Fin 4))).trans rfl
  decide

theorem operandIdx_axis1 (b : Fin 256) (s : Fin 512) (j : Fin 32) (d : Fin 3) :
    (diagDims.operandIdx (ix4 b s j d) (val_main_call0_v14 (F := Ideal)) (1 : Fin 5)).val = s.val := by
  show diagDims.start (ix4 b s j d) _ (1 : Fin 5) + diagDims.batchCoord (ix4 b s j d) (1 : Fin 5)
    + diagDims.offCoord (ix4 b s j d) (1 : Fin 5) = _
  rw [GatherDims.batchCoord_eq_zero _ _ _ List.not_mem_nil]
  unfold GatherDims.start
  rw [dif_neg (by decide)]
  unfold GatherDims.offCoord
  rw [dif_pos (by decide)]
  simp only [Nat.zero_add]
  refine (congrArg (fun a => ((ix4 b s j d) a).val) (?_ : _ = (1 : Fin 4))).trans rfl
  decide

theorem operandIdx_axis2 (b : Fin 256) (s : Fin 512) (j : Fin 32) (d : Fin 3) :
    (diagDims.operandIdx (ix4 b s j d) (val_main_call0_v14 (F := Ideal)) (2 : Fin 5)).val = j.val := by
  show diagDims.start (ix4 b s j d) _ (2 : Fin 5) + diagDims.batchCoord (ix4 b s j d) (2 : Fin 5)
    + diagDims.offCoord (ix4 b s j d) (2 : Fin 5) = _
  rw [GatherDims.batchCoord_eq_zero _ _ _ List.not_mem_nil]
  unfold GatherDims.start
  rw [dif_neg (by decide)]
  unfold GatherDims.offCoord
  rw [dif_pos (by decide)]
  simp only [Nat.zero_add]
  refine (congrArg (fun a => ((ix4 b s j d) a).val) (?_ : _ = (2 : Fin 4))).trans rfl
  decide

theorem operandIdx_axis3 (b : Fin 256) (s : Fin 512) (j : Fin 32) (d : Fin 3) :
    (diagDims.operandIdx (ix4 b s j d) (val_main_call0_v14 (F := Ideal)) (3 : Fin 5)).val = d.val := by
  show diagDims.start (ix4 b s j d) _ (3 : Fin 5) + diagDims.batchCoord (ix4 b s j d) (3 : Fin 5)
    + diagDims.offCoord (ix4 b s j d) (3 : Fin 5) = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (by decide)]
  have hsi : diagDims.siIdx (ix4 b s j d) ⟨List.idxOf (3 : Fin 5) diagDims.startIndexMap, List.idxOf_lt_length_iff.2 (by decide)⟩
      = ix2 d (0 : Fin 2) := by
    funext a; refine Fin.ext ?_
    match a with
    | ⟨0, _⟩ => rfl
    | ⟨1, _⟩ => rfl
  rw [hsi, startIdx]
  exact clampIdx d

theorem operandIdx_axis4 (b : Fin 256) (s : Fin 512) (j : Fin 32) (d : Fin 3) :
    (diagDims.operandIdx (ix4 b s j d) (val_main_call0_v14 (F := Ideal)) (4 : Fin 5)).val = d.val := by
  show diagDims.start (ix4 b s j d) _ (4 : Fin 5) + diagDims.batchCoord (ix4 b s j d) (4 : Fin 5)
    + diagDims.offCoord (ix4 b s j d) (4 : Fin 5) = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (by decide)]
  have hsi : diagDims.siIdx (ix4 b s j d) ⟨List.idxOf (4 : Fin 5) diagDims.startIndexMap, List.idxOf_lt_length_iff.2 (by decide)⟩
      = ix2 d (1 : Fin 2) := by
    funext a; refine Fin.ext ?_
    match a with
    | ⟨0, _⟩ => rfl
    | ⟨1, _⟩ => rfl
  rw [hsi, startIdx]
  exact clampIdx d

/-- THE DIAGONAL: the gathered entry `d` of problem `(b, s, j)` is the factor's entry `(d, d)`. -/
theorem diag_apply (x2 : (⟨S256x512x32x3x3, .f32⟩ : BufTy).Contents (Elt Ideal)) (b : Fin 256) (s : Fin 512) (j : Fin 32)
    (d : Fin 3) : val_main_v0 (F := Ideal) x2 (ix4 b s j d) = x2 (ix5 b s j d d) := by
  unfold val_main_v0 Host.gather
  refine congrArg x2 (funext fun a => Fin.ext ?_)
  match a with
  | ⟨0, _⟩ => exact operandIdx_axis0 b s j d
  | ⟨1, _⟩ => exact operandIdx_axis1 b s j d
  | ⟨2, _⟩ => exact operandIdx_axis2 b s j d
  | ⟨3, _⟩ => exact operandIdx_axis3 b s j d
  | ⟨4, _⟩ => exact operandIdx_axis4 b s j d

end Cert.TriNll.Ref

end
-- ==== Proof.RefLoss.lean ====
import proofs.«173011_j43868795961969_2_alg».proof.Proof.RefEntries
import proofs.«173011_j43868795961969_2_alg».proof.Proof.RefDiag
import proofs.«173011_j43868795961969_2_alg».proof.Proof.LossSpec

/-!
# The reference's loss of one problem

Stage by stage, the reference's value at problem `(b, s, j)` is the loss `nll` of that problem's residual and factor
entries: the three quotients of the forward substitution, their squares summed, twice the sum of the logarithms of the
diagonal, the constant, and the half. The logarithms are summed by a reduction that starts from zero, `0 + (a + b + c)`,
which is `(a + b) + c`; the host's logarithm and quotient are the extended reals' own.
-/

noncomputable section

namespace Cert.TriNll.Ref

open Idealize.ShloMosaic
open Idealize.ShloMosaic.ValueIdx
open Cert.ReferenceIdeal
open Cert.ReferenceIdeal.Gen
open Cert.ReferenceIdeal.Read

/-- The sum of the logarithms of the factor's diagonal, as the reference reduces it. -/
theorem logdet (x2 : (⟨S256x512x32x3x3, .f32⟩ : BufTy).Contents (Elt Ideal)) (b : Fin 256) (s : Fin 512) (j : Fin 32) :
    val_main_v2 (F := Ideal) x2 (ix3 b s j)
      = (Ideal.log (x2 (ix5 b s j (0 : Fin 3) (0 : Fin 3))) + Ideal.log (x2 (ix5 b s j (1 : Fin 3) (1 : Fin 3))))
          + Ideal.log (x2 (ix5 b s j (2 : Fin 3) (2 : Fin 3))) := by
  have e : ∀ k : Fin 3, idx_main_v2 (ix3 b s j) k = ix4 b s j k := fun k => funext fun a => Fin.ext (by
    match a with
    | ⟨0, _⟩ => rfl
    | ⟨1, _⟩ => rfl
    | ⟨2, _⟩ => rfl
    | ⟨3, _⟩ => rfl)
  rw [val_main_v2_apply, Fin.sum_univ_three]
  simp only [e, val_main_v1_apply, diag_apply, Ideal.hostUnary_log_def]
  show Ideal.ofBits .f32 0x00000000#32 + _ = _
  rw [Ideal.ofBits_zero_f32, zero_add]

/-- THE REFERENCE'S LOSS of problem `(b, s, j)` is `nll` of its entries. -/
theorem refLoss_apply (x0 x1 : (⟨S256x512x32x3, .f32⟩ : BufTy).Contents (Elt Ideal))
    (x2 : (⟨S256x512x32x3x3, .f32⟩ : BufTy).Contents (Elt Ideal)) (b : Fin 256) (s : Fin 512) (j : Fin 32) :
    val_main_v42 (F := Ideal) x0 x1 x2 (ix3 b s j)
      = nll (x0 (ix4 b s j (0 : Fin 3)) - x1 (ix4 b s j (0 : Fin 3))) (x0 (ix4 b s j (1 : Fin 3)) - x1 (ix4 b s j (1 : Fin 3)))
          (x0 (ix4 b s j (2 : Fin 3)) - x1 (ix4 b s j (2 : Fin 3)))
          (x2 (ix5 b s j (0 : Fin 3) (0 : Fin 3))) (x2 (ix5 b s j (1 : Fin 3) (0 : Fin 3))) (x2 (ix5 b s j (1 : Fin 3) (1 : Fin 3)))
          (x2 (ix5 b s j (2 : Fin 3) (0 : Fin 3))) (x2 (ix5 b s j (2 : Fin 3) (1 : Fin 3))) (x2 (ix5 b s j (2 : Fin 3) (2 : Fin 3))) := by
  simp only [val_main_v42_apply, val_main_v41_apply, val_main_cst_2_apply, val_main_v40_apply, val_main_v39_apply,
    val_main_cst_1_apply, val_main_v38_apply, val_main_v37_apply, val_main_v36_apply, val_main_v35_apply, val_main_v34_apply,
    val_main_v33_apply, val_main_v32_apply, val_main_v29_apply, val_main_v28_apply, val_main_v25_apply, val_main_v24_apply,
    val_main_v19_apply, val_main_v16_apply, val_main_v15_apply, val_main_v10_apply, val_main_v4_apply, val_main_v3_apply,
    val_main_cst_0_apply, resid0, resid1, resid2, factor00, factor10, factor11, factor20, factor21, factor22, logdet,
    Ideal.mulf_def, Ideal.addf_def, Ideal.subf_def, Ideal.hostDivf_def, Ideal.ofBits_def]
  rfl

end Cert.TriNll.Ref

end
-- ==== Proof.FlatLoss.lean ====
import proofs.«173011_j43868795961969_2_alg».proof.Proof.LossSpec
import proofs.«173011_j43868795961969_2_alg».proof.Proof.FlatLayout

/-!
# The loss of a row is the loss of its problem

Row `(512 b + s) · 32 + j` of the flattened arrays holds problem `(b, s, j)`: its residual entries are the two
vectors' entries `(b, s, j, k)`, and columns 0, 3, 4, 6, 7, 8 of its factor row are the factor's entries
`(0,0), (1,0), (1,1), (2,0), (2,1), (2,2)` (column `3 r + c` holds entry `(r, c)`). So the loss of that row is the
loss of that problem read from the arrays as given.
-/

noncomputable section

namespace Cert.TriNll

open Idealize.ShloMosaic Idealize.ShloMosaic.ValueIdx

theorem rowLoss_flat (x0 x1 : (⟨4, ![256, 512, 32, 3]⟩ : Shape).Idx → EReal) (x2 : (⟨5, ![256, 512, 32, 3, 3]⟩ : Shape).Idx → EReal)
    (h3 : (⟨4, ![256, 512, 32, 3]⟩ : Shape).ShapeCasts Vec3Rows) (h9 : (⟨5, ![256, 512, 32, 3, 3]⟩ : Shape).ShapeCasts Mat9Rows)
    (b : Fin 256) (s : Fin 512) (j : Fin 32) :
    rowLoss (shapeCast Vec3Rows x0 h3) (shapeCast Vec3Rows x1 h3) (shapeCast Mat9Rows x2 h9) (rowOf b s j)
      = nll (x0 (ix4 b s j (0 : Fin 3)) - x1 (ix4 b s j (0 : Fin 3))) (x0 (ix4 b s j (1 : Fin 3)) - x1 (ix4 b s j (1 : Fin 3)))
          (x0 (ix4 b s j (2 : Fin 3)) - x1 (ix4 b s j (2 : Fin 3)))
          (x2 (ix5 b s j (0 : Fin 3) (0 : Fin 3))) (x2 (ix5 b s j (1 : Fin 3) (0 : Fin 3))) (x2 (ix5 b s j (1 : Fin 3) (1 : Fin 3)))
          (x2 (ix5 b s j (2 : Fin 3) (0 : Fin 3))) (x2 (ix5 b s j (2 : Fin 3) (1 : Fin 3))) (x2 (ix5 b s j (2 : Fin 3) (2 : Fin 3))) := by
  unfold rowLoss
  rw [flat3_apply x0 h3 b s j (0 : Fin 3), flat3_apply x0 h3 b s j (1 : Fin 3), flat3_apply x0 h3 b s j (2 : Fin 3),
    flat3_apply x1 h3 b s j (0 : Fin 3), flat3_apply x1 h3 b s j (1 : Fin 3), flat3_apply x1 h3 b s j (2 : Fin 3),
    flat9_apply x2 h9 b s j (0 : Fin 3) (0 : Fin 3) (0 : Fin 9) rfl, flat9_apply x2 h9 b s j (1 : Fin 3) (0 : Fin 3) (3 : Fin 9) rfl,
    flat9_apply x2 h9 b s j (1 : Fin 3) (1 : Fin 3) (4 : Fin 9) rfl, flat9_apply x2 h9 b s j (2 : Fin 3) (0 : Fin 3) (6 : Fin 9) rfl,
    flat9_apply x2 h9 b s j (2 : Fin 3) (1 : Fin 3) (7 : Fin 9) rfl, flat9_apply x2 h9 b s j (2 : Fin 3) (2 : Fin 3) (8 : Fin 9) rfl]

end Cert.TriNll

end
-- ==== Proof.RefMean.lean ====
import proofs.«173011_j43868795961969_2_alg».proof.Proof.RefLoss
import proofs.«173011_j43868795961969_2_alg».proof.Proof.FlatLoss

/-!
# The reference's result is the mean loss over the rows

The reference sums its per-problem loss over all `256 × 512 × 32` problems, starting from zero, and divides by their
number. Numbering the problems in row-major order is a one-to-one correspondence with the rows `0 … 4 194 303` of the
flattened arrays, and the loss of problem `(b, s, j)` is the loss of its row; a sum in a commutative monoid does not
change under such a correspondence. So the reference's result is the mean loss of the flattened arguments.
-/

noncomputable section

namespace Cert.TriNll.Ref

open Idealize.ShloMosaic
open Idealize.ShloMosaic.ValueIdx
open Cert.ReferenceIdeal
open Cert.ReferenceIdeal.Gen
open Cert.ReferenceIdeal.Read

/-- There are `2²²` problems. -/
theorem problems_numel : S256x512x32.numel = 4194304 := by
  rw [Shape.numel, Fin.prod_univ_three]; rfl

/-- The problems in row-major order: problem `(b, s, j)` is row `(512 b + s) · 32 + j`. -/
def problemRow : S256x512x32.Idx ≃ Fin 4194304 := S256x512x32.rowMajor.trans (finCongr problems_numel)

theorem problemRow_ix3 (b : Fin 256) (s : Fin 512) (j : Fin 32) : problemRow (ix3 b s j) = rowOf b s j :=
  Fin.ext (by
    show (S256x512x32.rowMajor (ix3 b s j)).val = (rowOf b s j).val
    rw [Shape.rowMajor_val_three]; rfl)

/-- THE REFERENCE'S RESULT: the mean loss of the arguments flattened to one row per problem. -/
theorem ref_mean (x0 x1 : (⟨S256x512x32x3, .f32⟩ : BufTy).Contents (Elt Ideal))
    (x2 : (⟨S256x512x32x3x3, .f32⟩ : BufTy).Contents (Elt Ideal))
    (h3 : S256x512x32x3.ShapeCasts Vec3Rows) (h9 : S256x512x32x3x3.ShapeCasts Mat9Rows) (i : S_.Idx) :
    val_main_v44 (F := Ideal) x0 x1 x2 i
      = meanLoss (shapeCast Vec3Rows x0 h3) (shapeCast Vec3Rows x1 h3) (shapeCast Mat9Rows x2 h9) := by
  rw [val_main_v44_apply, val_main_v43_apply, val_main_cst_4_apply, val_main_cst_3_apply]
  show Ideal.div (Ideal.ofBits .f32 0x00000000#32 + ∑ p : S256x512x32.Idx, val_main_v42 (F := Ideal) x0 x1 x2 p)
      (Ideal.ofBits .f32 0x4A800000#32) = _
  rw [Ideal.ofBits_zero_f32, zero_add]
  unfold meanLoss
  refine congrArg (fun t => Ideal.div t count) ?_
  refine Fintype.sum_equiv problemRow _ _ fun p => ?_
  obtain ⟨b, s, j, rfl⟩ : ∃ (b : Fin 256) (s : Fin 512) (j : Fin 32), p = ix3 b s j := ⟨p 0, p 1, p 2, eq_ix3 p⟩
  rw [problemRow_ix3, rowLoss_flat, refLoss_apply]

end Cert.TriNll.Ref

end
-- ==== Proof.lean ====
/-
  The mean negative log-likelihood of 2²² three-dimensional Gaussians given by lower-triangular Cholesky factors:
  the kernel against its reference, on the extended reals.

  For one problem — residual `d = y − μ` and factor `L` — both programs solve `L x = d` by forward substitution and
  take `½ (‖x‖² + 2 (log l₀₀ + log l₁₁ + log l₂₂) + 3 log 2π)`, the same operations in the same order, with the same
  constants (the same bit patterns, so none is evaluated). The result is the mean over all problems: their sum
  divided by `2²²`.

  The reference works on the `256 × 512 × 32` problems in place: it takes each entry by a unit slice, the diagonal by a
  gather whose start indices are `(d, d)`, adds the three logarithms by a reduction from zero, sums the losses over
  all problems from zero, and divides. The kernel flattens the arguments to one row per problem, walks the rows in 512
  blocks of 8192, and at each block adds, to an accumulator zeroed at the first block, the block's losses summed as 64
  rows of 128; after the last block the accumulator is written out, read as a scalar, and divided.

  Both are therefore the sum of the same `2²²` extended reals, grouped and ordered differently, over the same divisor.
  Addition of extended reals is commutative and associative — with an infinity of either sign among the terms too — and a
  sum from zero is the sum, so the two results are equal for EVERY input: the precondition that the inputs are finite
  is never used. Row-major numbering carries problem `(b, s, j)` to row `(512 b + s) · 32 + j`, entry `k` of its vectors
  to column `k`, and entry `(r, c)` of its factor to column `3 r + c`; that is the whole correspondence.

  The three programs' runs (termination, no fault, arguments unchanged) are the generated frame runs; the idealization
  rewrote nothing, so it preserves the kernel trivially.
-/
import proofs.«173011_j43868795961969_2_alg».proof.Defs
import proofs.«173011_j43868795961969_2_alg».proof.Proof.Gen.Kernel
import proofs.«173011_j43868795961969_2_alg».proof.Proof.Gen.Kernel.Skeleton
import proofs.«173011_j43868795961969_2_alg».proof.Proof.Gen.Kernel.Launch
import proofs.«173011_j43868795961969_2_alg».proof.Proof.Gen.Kernel.Points
import proofs.«173011_j43868795961969_2_alg».proof.Proof.Gen.Kernel.Frame
import proofs.«173011_j43868795961969_2_alg».proof.Proof.Gen.KernelIdeal
import proofs.«173011_j43868795961969_2_alg».proof.Proof.Gen.KernelIdeal.Skeleton
import proofs.«173011_j43868795961969_2_alg».proof.Proof.Gen.KernelIdeal.Launch
import proofs.«173011_j43868795961969_2_alg».proof.Proof.Gen.KernelIdeal.Points
import proofs.«173011_j43868795961969_2_alg».proof.Proof.Gen.KernelIdeal.Frame
import proofs.«173011_j43868795961969_2_alg».proof.Proof.Gen.ReferenceIdeal
import proofs.«173011_j43868795961969_2_alg».proof.Proof.Gen.Pre_finite_inputs
import proofs.«173011_j43868795961969_2_alg».proof.Proof.Gen.ReferenceIdeal.Run
import proofs.«173011_j43868795961969_2_alg».proof.Proof.Gen.ReferenceIdeal.Read
import proofs.«173011_j43868795961969_2_alg».proof.Proof.KernelMean
import proofs.«173011_j43868795961969_2_alg».proof.Proof.RefMean
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does its idealization, -/
theorem frame_kernelIdeal : Cert.frame_KernelIdeal := fun m ρ _ => Cert.KernelIdeal.Gen.frame m ρ

/-- and the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both idealized programs end at the mean loss of the arguments flattened
    to one row per problem: the kernel by its accumulation over the 512 blocks, the reference by its sum over the
    problems in row-major order. -/
theorem algebraic : Cert.algebraic_KernelIdeal_ReferenceIdeal := by
  intro m ρ m' ρ' _ hagree
  refine ⟨_, Cert.TriNll.Kernel.kernel_run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq]
  funext i
  refine (Cert.TriNll.Ref.ref_mean _ _ _ Cert.KernelIdeal.Facts₀.shapeCasts_S256x512x32x3_S4194304x3
    Cert.KernelIdeal.Facts₀.shapeCasts_S256x512x32x3x3_S4194304x9 i).trans ?_
  rw [(hagree c).1, (hagree c).2.1, (hagree c).2.2]
  exact (Cert.TriNll.Kernel.kernel_mean m c i).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
